-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x32 : Shape := ⟨2, ![32, 32]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg5 : FVec F S32 .f32) (main_arg6 : FVec F S32x32 .f32) (main_arg7 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x256 .f32) (main_arg1 : IVec S2x3200000 32) (main_arg2 : FVec F S256x32 .f32) (main_arg3 : FVec F S32 .f32) (main_arg4 : FVec F S32x32 .f32) (main_arg5 : FVec F S32 .f32) (main_arg6 : FVec F S32x32 .f32) (main_arg7 : FVec F S32 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x32 .f32 := Host.absf main_arg2
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x32 : Shape := ⟨2, ![32, 32]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S5000x256 : Shape := ⟨2, ![5000, 256]⟩
abbrev S5000x32 : Shape := ⟨2, ![5000, 32]⟩
abbrev S1x32 : Shape := ⟨2, ![1, 32]⟩
abbrev S10000x32 : Shape := ⟨2, ![10000, 32]⟩
abbrev S3300000x32 : Shape := ⟨2, ![3300000, 32]⟩
abbrev S20000x32 : Shape := ⟨2, ![20000, 32]⟩

abbrev nBuf : Space → Nat
  | .hbm => 85
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S100000, .i32⟩
  | .hbm, ⟨13, _⟩ => ⟨S3300000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S100000x32, .f32⟩
  | .hbm, ⟨49, _⟩ => ⟨S100000x32, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x32, .f32⟩
  | .hbm, ⟨59, _⟩ => ⟨S3300000x1, .f32⟩
  | .hbm, ⟨60, _⟩ => ⟨S3300000x32, .f32⟩
  | .hbm, ⟨61, _⟩ => ⟨S3300000x32, .f32⟩
  | .hbm, ⟨62, _⟩ => ⟨S_, .f32⟩
  | .hbm, ⟨63, _⟩ => ⟨S100000x32, .f32⟩
  | .hbm, ⟨64, _⟩ => ⟨S3300000x1, .i32⟩
  | .hbm, ⟨65, _⟩ => ⟨S100000x32, .f32⟩
  | .hbm, ⟨66, _⟩ => ⟨S100000x32, .f32⟩
  | .hbm, ⟨67, _⟩ => ⟨S100000x32, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x32, .f32⟩
  | .hbm, ⟨77, _⟩ => ⟨S3300000x1, .f32⟩
  | .hbm, ⟨78, _⟩ => ⟨S3300000x32, .f32⟩
  | .hbm, ⟨79, _⟩ => ⟨S3300000x32, .f32⟩
  | .hbm, ⟨80, _⟩ => ⟨S_, .f32⟩
  | .hbm, ⟨81, _⟩ => ⟨S100000x32, .f32⟩
  | .hbm, ⟨82, _⟩ => ⟨S3300000x1, .i32⟩
  | .hbm, ⟨83, _⟩ => ⟨S100000x32, .f32⟩
  | .hbm, ⟨84, _⟩ => ⟨S100000x32, .f32⟩
  | .local _ .vmem, ⟨0, _⟩ => ⟨S5000x256, .f32⟩
  | .local _ .vmem, ⟨1, _⟩ => ⟨S5000x256, .f32⟩
  | .local _ .vmem, ⟨2, _⟩ => ⟨S256x32, .f32⟩
  | .local _ .vmem, ⟨3, _⟩ => ⟨S32, .f32⟩
  | .local _ .vmem, ⟨4, _⟩ => ⟨S5000x32, .f32⟩
  | .local _ .vmem, ⟨5, _⟩ => ⟨S5000x32, .f32⟩
  | .local _ .vmem, ⟨6, _⟩ => ⟨S10000x32, .f32⟩
  | .local _ .vmem, ⟨7, _⟩ => ⟨S10000x32, .f32⟩
  | .local _ .vmem, ⟨8, _⟩ => ⟨S32x32, .f32⟩
  | .local _ .vmem, ⟨9, _⟩ => ⟨S10000x32, .f32⟩
  | .local _ .vmem, ⟨10, _⟩ => ⟨S10000x32, .f32⟩
  | .local _ .vmem, ⟨11, _⟩ => ⟨S20000x32, .f32⟩
  | .local _ .vmem, ⟨12, _⟩ => ⟨S20000x32, .f32⟩
  | .local _ .vmem, ⟨13, _⟩ => ⟨S32, .f32⟩
  | .local _ .vmem, ⟨14, _⟩ => ⟨S20000x32, .f32⟩
  | .local _ .vmem, ⟨15, _⟩ => ⟨S20000x32, .f32⟩
  | .local _ .vmem, ⟨16, _⟩ => ⟨S10000x32, .f32⟩
  | .local _ .vmem, ⟨17, _⟩ => ⟨S10000x32, .f32⟩
  | .local _ .vmem, ⟨18, _⟩ => ⟨S32x32, .f32⟩
  | .local _ .vmem, ⟨19, _⟩ => ⟨S10000x32, .f32⟩
  | .local _ .vmem, ⟨20, _⟩ => ⟨S10000x32, .f32⟩
  | .local _ .vmem, ⟨21, _⟩ => ⟨S20000x32, .f32⟩
  | .local _ .vmem, ⟨22, _⟩ => ⟨S20000x32, .f32⟩
  | .local _ .vmem, ⟨23, _⟩ => ⟨S32, .f32⟩
  | .local _ .vmem, ⟨24, _⟩ => ⟨S20000x32, .f32⟩
  | .local _ .vmem, ⟨25, _⟩ => ⟨S20000x32, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S20000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S20000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  inb_S20000x32_S20000x32_0_0 : ∀ a, (![0, 0] : Fin 2 → Nat) a + S20000x32.size a ≤ S20000x32.size a
  h_S20000x32 : 0 < S20000x32.numel
  shapeCasts_S20000x32_S20000x32 : S20000x32.ShapeCasts S20000x32
  broadcasts_S1x32_S20000x32 : S1x32.Broadcasts S20000x32
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x32_S5000x32_1_0_0_1_n_n_wf : DotDims.WF S5000x256 S256x32 S5000x32 [1] [0] [0] [1] [] []
  dot_S10000x32_S32x32_S10000x32_1_0_0_1_n_n_wf : DotDims.WF S10000x32 S32x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x32.size a ≤ S100000x32.size a
  hwx2_0 : ∀ i : grid2.Coords, EltTy.bits .f32 = 32 ∨ (Rect.block (s := S100000x32) S20000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32.size a ≤ S32.size a
  hwx2_1 : ∀ i : grid2.Coords, EltTy.bits .f32 = 32 ∨ (Rect.block (s := S32) S32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x32.size a ≤ S100000x32.size a
  hwx2_2 : ∀ i : grid2.Coords, EltTy.bits .f32 = 32 ∨ (Rect.block (s := S100000x32) S20000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .f32 = 32 ∨ (Rect.block (s := S32x32) S32x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x32.size a ≤ S100000x32.size a
  hwx4_0 : ∀ i : grid4.Coords, EltTy.bits .f32 = 32 ∨ (Rect.block (s := S100000x32) S20000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32.size a ≤ S32.size a
  hwx4_1 : ∀ i : grid4.Coords, EltTy.bits .f32 = 32 ∨ (Rect.block (s := S32) S32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S20000x32.size a ≤ S100000x32.size a
  hwx4_2 : ∀ i : grid4.Coords, EltTy.bits .f32 = 32 ∨ (Rect.block (s := S100000x32) S20000x32.size (cc4_transform_2 i) (hinb4_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S20000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S20000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S20000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S20000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x32 : Shape := ⟨2, ![256, 32]⟩
abbrev S32 : Shape := ⟨1, ![32]⟩
abbrev S32x32 : Shape := ⟨2, ![32, 32]⟩
abbrev S1x3200000 : Shape := ⟨2, ![1, 3200000]⟩
abbrev S3200000 : Shape := ⟨1, ![3200000]⟩
abbrev S100000x32 : Shape := ⟨2, ![100000, 32]⟩
abbrev S1x32 : Shape := ⟨2, ![1, 32]⟩
abbrev S_ : Shape := ⟨0, ![]⟩
abbrev S100000 : Shape := ⟨1, ![100000]⟩
abbrev S3300000 : Shape := ⟨1, ![3300000]⟩
abbrev S3300000x1 : Shape := ⟨2, ![3300000, 1]⟩
abbrev S3300000x32 : Shape := ⟨2, ![3300000, 32]⟩

abbrev nBuf : Space → Nat
  | .hbm => 134
  | .vmem => 0
  | .smem => 0
  | _ => 0

abbrev hbmTy0_0 (i : Nat) : BufTy := match i % 128 with
  | 0 => ⟨S100000x256, .f32⟩
  | 1 => ⟨S2x3200000, .i32⟩
  | 2 => ⟨S256x32, .f32⟩
  | 3 => ⟨S32, .f32⟩
  | 4 => ⟨S32x32, .f32⟩
  | 5 => ⟨S32, .f32⟩
  | 6 => ⟨S32x32, .f32⟩
  | 7 => ⟨S32, .f32⟩
  | 8 => ⟨S1x3200000, .i32⟩
  | 9 => ⟨S3200000, .i32⟩
  | 10 => ⟨S1x3200000, .i32⟩
  | 11 => ⟨S3200000, .i32⟩
  | 12 => ⟨S100000x32, .f32⟩
  | 13 => ⟨S1x32, .f32⟩
  | 14 => ⟨S100000x32, .f32⟩
  | 15 => ⟨S100000x32, .f32⟩
  | 16 => ⟨S_, .f32⟩
  | 17 => ⟨S100000x32, .f32⟩
  | 18 => ⟨S100000x32, .f32⟩
  | 19 => ⟨S100000x32, .f32⟩
  | 20 => ⟨S100000, .i32⟩
  | 21 => ⟨S3300000, .i32⟩
  | 22 => ⟨S3300000, .i32⟩
  | 23 => ⟨S_, .f32⟩
  | 24 => ⟨S3300000, .f32⟩
  | 25 => ⟨S_, .f32⟩
  | 26 => ⟨S100000, .f32⟩
  | 27 => ⟨S3300000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S_, .i32⟩
  | 47 => ⟨S3300000, .i32⟩
  | 48 => ⟨S3300000, .i1⟩
  | 49 => ⟨S_, .i32⟩
  | 50 => ⟨S3300000, .i32⟩
  | 51 => ⟨S3300000, .i32⟩
  | 52 => ⟨S3300000, .i32⟩
  | 53 => ⟨S3300000x1, .i32⟩
  | 54 => ⟨S3300000, .f32⟩
  | 55 => ⟨S3300000, .f32⟩
  | 56 => ⟨S_, .i32⟩
  | 57 => ⟨S3300000, .i32⟩
  | 58 => ⟨S3300000, .i1⟩
  | 59 => ⟨S_, .i32⟩
  | 60 => ⟨S3300000, .i32⟩
  | 61 => ⟨S3300000, .i32⟩
  | 62 => ⟨S3300000, .i32⟩
  | 63 => ⟨S3300000x1, .i32⟩
  | 64 => ⟨S3300000x32, .f32⟩
  | 65 => ⟨S3300000x1, .f32⟩
  | 66 => ⟨S3300000x32, .f32⟩
  | 67 => ⟨S3300000x32, .f32⟩
  | 68 => ⟨S_, .f32⟩
  | 69 => ⟨S100000x32, .f32⟩
  | 70 => ⟨S3300000x1, .i32⟩
  | 71 => ⟨S100000x32, .f32⟩
  | 72 => ⟨S1x32, .f32⟩
  | 73 => ⟨S100000x32, .f32⟩
  | 74 => ⟨S100000x32, .f32⟩
  | 75 => ⟨S_, .f32⟩
  | 76 => ⟨S100000x32, .f32⟩
  | 77 => ⟨S100000x32, .f32⟩
  | 78 => ⟨S100000x32, .f32⟩
  | 79 => ⟨S100000, .i32⟩
  | 80 => ⟨S3300000, .i32⟩
  | 81 => ⟨S3300000, .i32⟩
  | 82 => ⟨S_, .f32⟩
  | 83 => ⟨S3300000, .f32⟩
  | 84 => ⟨S_, .f32⟩
  | 85 => ⟨S100000, .f32⟩
  | 86 => ⟨S3300000x1, .i32⟩
  | 87 => ⟨S100000, .f32⟩
  | 88 => ⟨S_, .f32⟩
  | 89 => ⟨S100000, .f32⟩
  | 90 => ⟨S100000, .i1⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000, .f32⟩
  | 114 => ⟨S3300000, .f32⟩
  | 115 => ⟨S_, .i32⟩
  | 116 => ⟨S3300000, .i32⟩
  | 117 => ⟨S3300000, .i1⟩
  | 118 => ⟨S_, .i32⟩
  | 119 => ⟨S3300000, .i32⟩
  | 120 => ⟨S3300000, .i32⟩
  | 121 => ⟨S3300000, .i32⟩
  | 122 => ⟨S3300000x1, .i32⟩
  | 123 => ⟨S3300000x32, .f32⟩
  | 124 => ⟨S3300000x1, .f32⟩
  | 125 => ⟨S3300000x32, .f32⟩
  | 126 => ⟨S3300000x32, .f32⟩
  | 127 => ⟨S_, .f32⟩
  | _ => ⟨S100000x256, .f32⟩

abbrev hbmTy0_1 (i : Nat) : BufTy := match i % 128 with
  | 0 => ⟨S100000x32, .f32⟩
  | 1 => ⟨S3300000x1, .i32⟩
  | 2 => ⟨S100000x32, .f32⟩
  | 3 => ⟨S1x32, .f32⟩
  | 4 => ⟨S100000x32, .f32⟩
  | 5 => ⟨S100000x32, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call2_cst : Ref sig .tc := ⟨.hbm, 75, rfl⟩
abbrev main_call2_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_9 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_12 : Ref sig .tc := ⟨.hbm, 92, rfl⟩
abbrev main_call3_v0 : Ref sig .tc := ⟨.hbm, 93, rfl⟩
abbrev main_call3_v1 : Ref sig .tc := ⟨.hbm, 94, rfl⟩
abbrev main_v64 : Ref sig .tc := ⟨.hbm, 95, rfl⟩
abbrev main_c_13 : Ref sig .tc := ⟨.hbm, 96, rfl⟩
abbrev main_v65 : Ref sig .tc := ⟨.hbm, 97, rfl⟩
abbrev main_v66 : Ref sig .tc := ⟨.hbm, 98, rfl⟩
abbrev main_c_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_15 : Ref sig .tc := ⟨.hbm, 105, rfl⟩
abbrev main_v72 : Ref sig .tc := ⟨.hbm, 106, rfl⟩
abbrev main_v73 : Ref sig .tc := ⟨.hbm, 107, rfl⟩
abbrev main_c_16 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_17 : Ref sig .tc := ⟨.hbm, 115, rfl⟩
abbrev main_v80 : Ref sig .tc := ⟨.hbm, 116, rfl⟩
abbrev main_v81 : Ref sig .tc := ⟨.hbm, 117, rfl⟩
abbrev main_c_18 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_19 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  dot_S100000x256_S256x32_S100000x32_1_0_0_1_n_n_wf : DotDims.WF S100000x256 S256x32 S100000x32 [1] [0] [0] [1] [] []
  dot_S100000x32_S32x32_S100000x32_1_0_0_1_n_n_wf : DotDims.WF S100000x32 S32x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1

variable [Facts₀]

def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf

class Facts : Prop extends Facts₀ where

variable [Facts]
-- ==== Proof.RefStages.lean ====
/-
  The reference program's stages as functions of their OPERANDS, spelt with the reference's own operations, at the
  extended reals: the edge vectors (source and destination node per edge, each followed by one self-loop per node),
  the in-degree, its inverse square root where the degree is positive (zero elsewhere), the edge weight (the product
  of the two ends' factors), the normalised sum over incoming edges, and the dense stages. The graph stages are
  never opened by any proof: both programs spell them with these operations, so only the arrays going in matter.
-/
import proofs.«181133_j34840774705775_1_alg».proof.Proof.Gen.ReferenceIdeal
import Idealize.ShloMosaic.PureOps.Ideal

noncomputable section

namespace Cert.ReferenceIdeal.Chain

open Cert.ReferenceIdeal Cert.ReferenceIdeal.Facts₀ Idealize.ShloMosaic

/-- Row `a` of the edge list followed by the node numbers 0 … 99999 (the self-loops). -/
def srcOf (x1 : IVec S2x3200000 32) : IVec S3300000 32 :=
  concatenate S3300000 0 [⟨S3200000, shapeCast _ (extractStridedSlice S1x3200000 ![0, 0] x1 slices_S2x3200000_S1x3200000_0_0) shapeCasts_S1x3200000_S3200000⟩, ⟨S100000, iotaInDim S100000 32 0⟩] concatenates_S3200000_S100000_S3300000_d0

def dstOf (x1 : IVec S2x3200000 32) : IVec S3300000 32 :=
  concatenate S3300000 0 [⟨S3200000, shapeCast _ (extractStridedSlice S1x3200000 ![1, 0] x1 slices_S2x3200000_S1x3200000_1_0) shapeCasts_S1x3200000_S3200000⟩, ⟨S100000, iotaInDim S100000 32 0⟩] concatenates_S3200000_S100000_S3300000_d0

/-- The number of edges arriving at each node: ones added by destination into a zero vector. -/
def degOf (d : IVec S3300000 32) : FVec Ideal S100000 .f32 :=
  Host.scatterAdd (F := Ideal) scatter_S100000_S3300000x1_S3300000_n_0_0_1
    (broadcastInDim S100000 ![] bcast_S_S100000 (constant (F := Ideal) S_ .f32 0x00000000#32))
    (broadcastInDim S3300000x1 ![0] bcast_S3300000_S3300000x1_0 d)
    (broadcastInDim S3300000 ![] bcast_S_S3300000 (constant (F := Ideal) S_ .f32 0x3F800000#32))

/-- deg^(-1/2) where deg > 0, else 0. -/
def disOf (deg : FVec Ideal S100000 .f32) : FVec Ideal S100000 .f32 :=
  select (cmpf (F := Ideal) .ogt deg (broadcastInDim S100000 ![] bcast_S_S100000 (constant (F := Ideal) S_ .f32 0x00000000#32)))
    (Host.rsqrt (F := Ideal) deg)
    (broadcastInDim S100000 ![] bcast_S_S100000 (id (constant (F := Ideal) S_ .f32 0x00000000#32)))

/-- A node number below zero counts from the end: add the node count once. -/
def wrapOf (s : IVec S3300000 32) : IVec S3300000 32 :=
  select (cmpi .slt s (broadcastInDim S3300000 ![] bcast_S_S3300000 (constantI S_ 32 0#32)))
    (addi s (broadcastInDim S3300000 ![] bcast_S_S3300000 (constantI S_ 32 100000#32))) s

/-- A per-node vector read at each edge's node. -/
def takeOf (v : FVec Ideal S100000 .f32) (s : IVec S3300000 32) : FVec Ideal S3300000 .f32 :=
  Host.gather gather_S100000_S3300000x1_S3300000_n_0_n_n_0_1_1 v
    (broadcastInDim S3300000x1 ![0] bcast_S3300000_S3300000x1_0 (wrapOf s))

/-- The edge weight: the product of the two ends' factors. -/
def normOf (x1 : IVec S2x3200000 32) : FVec Ideal S3300000 .f32 :=
  mulf (takeOf (disOf (degOf (dstOf x1))) (srcOf x1)) (takeOf (disOf (degOf (dstOf x1))) (dstOf x1))

/-- Scatter-add, by destination `d`, of the rows of `h` gathered at the sources `s`, each scaled by its weight `n`. -/
def aggOf (h : FVec Ideal S100000x32 .f32) (s d : IVec S3300000 32) (n : FVec Ideal S3300000 .f32) : FVec Ideal S100000x32 .f32 :=
  Host.scatterAdd (F := Ideal) scatter_S100000x32_S3300000x1_S3300000x32_1_0_0_1
    (broadcastInDim S100000x32 ![] bcast_S_S100000x32 (constant (F := Ideal) S_ .f32 0x00000000#32))
    (broadcastInDim S3300000x1 ![0] bcast_S3300000_S3300000x1_0 d)
    (mulf (Host.gather gather_S100000x32_S3300000x1_S3300000x32_1_0_n_n_0_1_132 h
        (broadcastInDim S3300000x1 ![0] bcast_S3300000_S3300000x1_0 (wrapOf s)))
      (broadcastInDim S3300000x32 ![0, 1] bcast_S3300000x1_S3300000x32_0_1
        (broadcastInDim S3300000x1 ![0] bcast_S3300000_S3300000x1_0 n)))

/-- The first dense product. -/
def dot256Of (x : FVec Ideal S100000x256 .f32) (w : FVec Ideal S256x32 .f32) : FVec Ideal S100000x32 .f32 :=
  Host.dotGeneral (F := Ideal) dot_S100000x256_S256x32_S100000x32_1_0_0_1_n_n none x w

/-- A convolution's dense product. -/
def dot32Of (h : FVec Ideal S100000x32 .f32) (w : FVec Ideal S32x32 .f32) : FVec Ideal S100000x32 .f32 :=
  Host.dotGeneral (F := Ideal) dot_S100000x32_S32x32_S100000x32_1_0_0_1_n_n none h w

/-- A bias spread down the rows and added. -/
def biasOf (a : FVec Ideal S100000x32 .f32) (b : FVec Ideal S32 .f32) : FVec Ideal S100000x32 .f32 :=
  addf a (broadcastInDim S100000x32 ![0, 1] bcast_S1x32_S100000x32_0_1 (broadcastInDim S1x32 ![1] bcast_S32_S1x32_1 b))

/-- The rectifier. -/
def reluOf (a : FVec Ideal S100000x32 .f32) : FVec Ideal S100000x32 .f32 :=
  maximumf a (broadcastInDim S100000x32 ![] bcast_S_S100000x32 (constant (F := Ideal) S_ .f32 0x00000000#32))

end Cert.ReferenceIdeal.Chain

end
-- ==== Proof.KHost.lean ====
/-
  The host stretches of the kernel program between its regions, read as values: for any buffer contents at a
  stretch's start, the buffer a stretch writes last holds the reference's own chain of operations applied to the
  contents the stretch read. Both programs print the same operations; only the names of the shapes and of the
  dimension records differ, and those unfold to the same literals. Also: which buffers each stretch writes, so
  that every other buffer is carried through it unchanged.
-/
import proofs.«181133_j34840774705775_1_alg».proof.Proof.Gen.KernelIdeal.Launch
import proofs.«181133_j34840774705775_1_alg».proof.Proof.RefStages
import Idealize.ShloMosaic.Lib.StableHlo.Run

noncomputable section

open Idealize.ShloMosaic Idealize.ShloMosaic.TcCoe Idealize.SL.Sem

namespace Cert.KernelIdeal.Hand

open Cert.KernelIdeal Cert.KernelIdeal.Gen

/-! ## What each stretch writes, and so what it leaves alone -/

/-- The buffers the first stretch writes. -/
abbrev ops0_W : List (Ref sig .tc) :=
  [main_v0, main_v1, main_v2, main_v3, main_v4, main_v5, main_v6, main_cst, main_v7, main_cst_0, main_v8, main_v9,
   main_v10, main_cst_1, main_v11, main_v12, main_v13, main_cst_2]
/-- The buffers the second stretch (the zero-fill of the inverse square root) writes. -/
abbrev ops0_1_W : List (Ref sig .tc) := [main_call0_v0, main_call0_v1, main_v14]
/-- The buffers the third stretch writes. -/
abbrev ops0_2_W : List (Ref sig .tc) :=
  [main_c, main_v15, main_v16, main_c_3, main_v17, main_v18, main_v19, main_v20, main_v21, main_c_4, main_v22, main_v23,
   main_c_5, main_v24, main_v25, main_v26, main_v27, main_v28, main_v29]
/-- The buffers the first convolution's edge sum writes. -/
abbrev ops2_W : List (Ref sig .tc) :=
  [main_c_6, main_v32, main_v33, main_c_7, main_v34, main_v35, main_v36, main_v37, main_v38, main_v39, main_v40, main_v41,
   main_cst_8, main_v42, main_v43, main_v44]
/-- The buffers the second convolution's edge sum writes. -/
abbrev ops4_W : List (Ref sig .tc) :=
  [main_c_9, main_v47, main_v48, main_c_10, main_v49, main_v50, main_v51, main_v52, main_v53, main_v54, main_v55, main_v56,
   main_cst_11, main_v57, main_v58, main_v59]

/-- Every operation of a literal stretch writes inside the listed buffers: each operation writes its one result. -/
local macro "writes_listed " ops:ident : tactic =>
  `(tactic| (simp only [$ops:ident, List.Forall, StableHlo.nullary_writes, StableHlo.unary_writes, StableHlo.binary_writes,
      StableHlo.ternary_writes, StableHlo.quaternary_writes, StableHlo.reshape_writes, Finset.singleton_subset_iff,
      List.mem_toFinset]
             repeat' apply And.intro
             all_goals exact List.mem_map_of_mem (by decide)))

theorem ops0_writes : (hostOps0 : List (HloOp τ sig (Elt Ideal))).Forall fun op =>
    op.writes ⊆ (ops0_W.map (Proc.devRef (τ := τ) .tc)).toFinset := by writes_listed hostOps0
theorem ops0_1_writes : (hostOps0_1 : List (HloOp τ sig (Elt Ideal))).Forall fun op =>
    op.writes ⊆ (ops0_1_W.map (Proc.devRef (τ := τ) .tc)).toFinset := by writes_listed hostOps0_1
theorem ops0_2_writes : (hostOps0_2 : List (HloOp τ sig (Elt Ideal))).Forall fun op =>
    op.writes ⊆ (ops0_2_W.map (Proc.devRef (τ := τ) .tc)).toFinset := by writes_listed hostOps0_2
theorem ops2_writes : (hostOps2 : List (HloOp τ sig (Elt Ideal))).Forall fun op =>
    op.writes ⊆ (ops2_W.map (Proc.devRef (τ := τ) .tc)).toFinset := by writes_listed hostOps2
theorem ops4_writes : (hostOps4 : List (HloOp τ sig (Elt Ideal))).Forall fun op =>
    op.writes ⊆ (ops4_W.map (Proc.devRef (τ := τ) .tc)).toFinset := by writes_listed hostOps4

variable (W : Valuation τ sig (Elt Ideal))

/-- A buffer a stretch does not write holds after it what it held before. -/
theorem keep0 (r : Ref sig .tc) (h : r ∉ ops0_W) :
    StableHlo.after (hostOps0 (F := Ideal)) W (Proc.devRef .tc r) = W (Proc.devRef .tc r) :=
  StableHlo.after_of_writes_sub hostOps0 _ ops0_writes h
theorem keep0_1 (r : Ref sig .tc) (h : r ∉ ops0_1_W) :
    StableHlo.after (hostOps0_1 (F := Ideal)) W (Proc.devRef .tc r) = W (Proc.devRef .tc r) :=
  StableHlo.after_of_writes_sub hostOps0_1 _ ops0_1_writes h
theorem keep0_2 (r : Ref sig .tc) (h : r ∉ ops0_2_W) :
    StableHlo.after (hostOps0_2 (F := Ideal)) W (Proc.devRef .tc r) = W (Proc.devRef .tc r) :=
  StableHlo.after_of_writes_sub hostOps0_2 _ ops0_2_writes h
theorem keep2 (r : Ref sig .tc) (h : r ∉ ops2_W) :
    StableHlo.after (hostOps2 (F := Ideal)) W (Proc.devRef .tc r) = W (Proc.devRef .tc r) :=
  StableHlo.after_of_writes_sub hostOps2 _ ops2_writes h
theorem keep4 (r : Ref sig .tc) (h : r ∉ ops4_W) :
    StableHlo.after (hostOps4 (F := Ideal)) W (Proc.devRef .tc r) = W (Proc.devRef .tc r) :=
  StableHlo.after_of_writes_sub hostOps4 _ ops4_writes h

/-! ## The two edge sums -/

set_option maxHeartbeats 400000 in
/-- The second convolution's edge sum. -/
theorem host4_agg :
    StableHlo.after (hostOps4 (F := Ideal)) W (Proc.devRef .tc main_v59)
      = Cert.ReferenceIdeal.Chain.aggOf (W (Proc.devRef .tc main_v46)) (W (Proc.devRef .tc main_v5))
          (W (Proc.devRef .tc main_v6)) (W (Proc.devRef .tc main_v29)) := by
  simp only [hostOps4]
  after_results
  rfl

set_option maxHeartbeats 400000 in
/-- The first convolution's edge sum. -/
theorem host2_agg :
    StableHlo.after (hostOps2 (F := Ideal)) W (Proc.devRef .tc main_v44)
      = Cert.ReferenceIdeal.Chain.aggOf (W (Proc.devRef .tc main_v31)) (W (Proc.devRef .tc main_v5))
          (W (Proc.devRef .tc main_v6)) (W (Proc.devRef .tc main_v29)) := by
  simp only [hostOps2]
  after_results
  rfl

/-! ## The edge vectors and the edge weights: the three stretches before the first region, one at a time -/

set_option maxHeartbeats 400000 in
/-- The sources, self-loops appended. -/
theorem hostA_src :
    StableHlo.after (hostOps0 (F := Ideal)) W (Proc.devRef .tc main_v5)
      = Cert.ReferenceIdeal.Chain.srcOf (W (Proc.devRef .tc main_arg1)) := by
  simp only [hostOps0]
  after_results
  rfl

set_option maxHeartbeats 400000 in
/-- The destinations, self-loops appended. -/
theorem hostA_dst :
    StableHlo.after (hostOps0 (F := Ideal)) W (Proc.devRef .tc main_v6)
      = Cert.ReferenceIdeal.Chain.dstOf (W (Proc.devRef .tc main_arg1)) := by
  simp only [hostOps0]
  after_results
  rfl

set_option maxHeartbeats 400000 in
/-- Where the in-degree is positive. -/
theorem hostA_pos :
    StableHlo.after (hostOps0 (F := Ideal)) W (Proc.devRef .tc main_v12)
      = cmpf (F := Ideal) .ogt (Cert.ReferenceIdeal.Chain.degOf (Cert.ReferenceIdeal.Chain.dstOf (W (Proc.devRef .tc main_arg1))))
          (broadcastInDim Cert.ReferenceIdeal.S100000 ![] Cert.ReferenceIdeal.Facts₀.bcast_S_S100000
            (constant (F := Ideal) Cert.ReferenceIdeal.S_ .f32 0x00000000#32)) := by
  simp only [hostOps0]
  after_results
  rfl

set_option maxHeartbeats 400000 in
/-- The in-degree's inverse square root. -/
theorem hostA_rsqrt :
    StableHlo.after (hostOps0 (F := Ideal)) W (Proc.devRef .tc main_v13)
      = Host.rsqrt (F := Ideal) (Cert.ReferenceIdeal.Chain.degOf (Cert.ReferenceIdeal.Chain.dstOf (W (Proc.devRef .tc main_arg1)))) := by
  simp only [hostOps0]
  after_results
  rfl

set_option maxHeartbeats 400000 in
/-- The fill value. -/
theorem hostA_zero :
    StableHlo.after (hostOps0 (F := Ideal)) W (Proc.devRef .tc main_cst_2)
      = constant (F := Ideal) Cert.ReferenceIdeal.S_ .f32 0x00000000#32 := by
  simp only [hostOps0]
  after_results

set_option maxHeartbeats 400000 in
/-- The per-node factor: the inverse square root where the degree is positive, the fill value elsewhere. -/
theorem hostB_dis :
    StableHlo.after (hostOps0_1 (F := Ideal)) W (Proc.devRef .tc main_v14)
      = select (W (Proc.devRef .tc main_v12)) (W (Proc.devRef .tc main_v13))
          (broadcastInDim Cert.ReferenceIdeal.S100000 ![] Cert.ReferenceIdeal.Facts₀.bcast_S_S100000 (id (W (Proc.devRef .tc main_cst_2)))) := by
  simp only [hostOps0_1]
  after_results
  rfl

set_option maxHeartbeats 2000000 in
/-- The edge weight: the product of the factors read at the two ends. -/
theorem hostC_norm :
    StableHlo.after (hostOps0_2 (F := Ideal)) W (Proc.devRef .tc main_v29)
      = mulf (Cert.ReferenceIdeal.Chain.takeOf (W (Proc.devRef .tc main_v14)) (W (Proc.devRef .tc main_v5)))
          (Cert.ReferenceIdeal.Chain.takeOf (W (Proc.devRef .tc main_v14)) (W (Proc.devRef .tc main_v6))) := by
  simp only [hostOps0_2]
  after_results_simp
  rfl

/-! ## The three together -/

theorem host0_src :
    StableHlo.after hostOps0_2 (StableHlo.after hostOps0_1 (StableHlo.after (hostOps0 (F := Ideal)) W)) (Proc.devRef .tc main_v5)
      = Cert.ReferenceIdeal.Chain.srcOf (W (Proc.devRef .tc main_arg1)) :=
  (keep0_2 _ main_v5 (by decide)).trans ((keep0_1 _ main_v5 (by decide)).trans (hostA_src W))

theorem host0_dst :
    StableHlo.after hostOps0_2 (StableHlo.after hostOps0_1 (StableHlo.after (hostOps0 (F := Ideal)) W)) (Proc.devRef .tc main_v6)
      = Cert.ReferenceIdeal.Chain.dstOf (W (Proc.devRef .tc main_arg1)) :=
  (keep0_2 _ main_v6 (by decide)).trans ((keep0_1 _ main_v6 (by decide)).trans (hostA_dst W))

set_option maxHeartbeats 400000 in
theorem host0_norm :
    StableHlo.after hostOps0_2 (StableHlo.after hostOps0_1 (StableHlo.after (hostOps0 (F := Ideal)) W)) (Proc.devRef .tc main_v29)
      = Cert.ReferenceIdeal.Chain.normOf (W (Proc.devRef .tc main_arg1)) := by
  rw [hostC_norm, hostB_dis, keep0_1 _ main_v5 (by decide), keep0_1 _ main_v6 (by decide), hostA_src, hostA_dst, hostA_pos,
    hostA_rsqrt, hostA_zero]
  rfl

end Cert.KernelIdeal.Hand

end
-- ==== Proof.Spec.lean ====
/-
  The network as functions of whole arrays, entry by entry, on the extended reals.

  A node's features pass through a dense layer with a rectifier, then twice through a graph convolution: a dense
  layer without bias, the normalised sum over the node's incoming edges, a bias (and, after the first convolution,
  a rectifier). Here are the dense stages; the edge sums are carried as one opaque chain elsewhere, since both
  programs spell them with the same operations.

  A dense layer's entry (r, j) is the sum over k of x(r, k) * w(k, j): a finite sum on the extended reals, whose
  addition is commutative and associative, so no order of summation is fixed. The rectifier is the maximum with
  the number the all-zero word denotes.
-/
import Idealize.ShloMosaic.Lib.ValueIdx
import Idealize.ShloMosaic.PureOps.Ideal

noncomputable section

namespace Cert.Gcn

open Idealize.ShloMosaic Idealize.ShloMosaic.ValueIdx

/-- Node features [100000, 256]. -/
abbrev SX : Shape := ⟨2, ![100000, 256]⟩
/-- First dense weight [256, 32]. -/
abbrev SW0 : Shape := ⟨2, ![256, 32]⟩
/-- A bias [32]. -/
abbrev SB : Shape := ⟨1, ![32]⟩
/-- A convolution's weight [32, 32]. -/
abbrev SW : Shape := ⟨2, ![32, 32]⟩
/-- Hidden features [100000, 32]. -/
abbrev SH : Shape := ⟨2, ![100000, 32]⟩

/-- The number the all-zero word denotes (it is 0; no proof here needs to know). -/
abbrev zeroWord : Ideal .f32 := Ideal.ofBits .f32 0x00000000#32

/-- Entry (r, j) of relu(x · w + b). -/
def fcAt (x : FVec Ideal SX .f32) (w : FVec Ideal SW0 .f32) (b : FVec Ideal SB .f32) (r : Fin 100000) (j : Fin 32) : Ideal .f32 :=
  max ((∑ k : Fin 256, x (ix2 r k) * w (ix2 k j)) + b (ix1 j)) zeroWord

/-- relu(x · w + b) as an array. -/
def fcRelu (x : FVec Ideal SX .f32) (w : FVec Ideal SW0 .f32) (b : FVec Ideal SB .f32) : FVec Ideal SH .f32 :=
  fun i => fcAt x w b (i 0) (i 1)

theorem fcRelu_apply (x : FVec Ideal SX .f32) (w : FVec Ideal SW0 .f32) (b : FVec Ideal SB .f32) (r : Fin 100000) (j : Fin 32) :
    fcRelu x w b (ix2 r j) = fcAt x w b r j := rfl

/-- Entry (r, j) of h · w. -/
def linAt (h : FVec Ideal SH .f32) (w : FVec Ideal SW .f32) (r : Fin 100000) (j : Fin 32) : Ideal .f32 :=
  ∑ k : Fin 32, h (ix2 r k) * w (ix2 k j)

/-- h · w as an array. -/
def lin (h : FVec Ideal SH .f32) (w : FVec Ideal SW .f32) : FVec Ideal SH .f32 :=
  fun i => linAt h w (i 0) (i 1)

theorem lin_apply (h : FVec Ideal SH .f32) (w : FVec Ideal SW .f32) (r : Fin 100000) (j : Fin 32) :
    lin h w (ix2 r j) = linAt h w r j := rfl

/-- relu(a + b), the bias spread down the rows. -/
def biasRelu (a : FVec Ideal SH .f32) (b : FVec Ideal SB .f32) : FVec Ideal SH .f32 :=
  fun i => max (a (ix2 (i 0) (i 1)) + b (ix1 (i 1))) zeroWord

theorem biasRelu_apply (a : FVec Ideal SH .f32) (b : FVec Ideal SB .f32) (r : Fin 100000) (j : Fin 32) :
    biasRelu a b (ix2 r j) = max (a (ix2 r j) + b (ix1 j)) zeroWord := rfl

/-- a + b, the bias spread down the rows. -/
def bias (a : FVec Ideal SH .f32) (b : FVec Ideal SB .f32) : FVec Ideal SH .f32 :=
  fun i => a (ix2 (i 0) (i 1)) + b (ix1 (i 1))

theorem bias_apply (a : FVec Ideal SH .f32) (b : FVec Ideal SB .f32) (r : Fin 100000) (j : Fin 32) :
    bias a b (ix2 r j) = a (ix2 r j) + b (ix1 j) := rfl

end Cert.Gcn

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.KFc.lean ====
/-
  The first region of the kernel read as a whole array: the dense layer with bias and rectifier. It runs over twenty
  blocks of 5000 rows; at a point it loads its block of the node features, the whole 256 x 32 weight and the 32
  biases, multiplies block and weight into a zero accumulator, adds the bias along the lanes, takes the maximum with
  the zero word, and writes the block back. On the extended reals the product's entry (p, j) is the sum over k of
  block(p, k) * weight(k, j); block t's row p is the array's row 5000 t + p, so what every point writes back is its
  block of ONE whole-array function, and the twenty blocks cover the rows.
-/
import proofs.«181133_j34840774705775_1_alg».proof.Proof.Gen.KernelIdeal.Frame
import proofs.«181133_j34840774705775_1_alg».proof.Proof.Spec
import proofs.«181133_j34840774705775_1_alg».proof.Proof.LibPlainDot
import proofs.«181133_j34840774705775_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz2f : (![0, 0] : Fin 2 → Nat) = fun _ => 0 := funext fun a => by fin_cases a <;> rfl
theorem hz1f : (![0] : Fin 1 → Nat) = fun _ => 0 := funext fun a => by fin_cases a <;> rfl

/-- The dimension numbers of the product are plain: the left operand's axis 1 against the right operand's axis 0, no
    batch axis; so the left operand is read at (row, k) and the right at (k, column). -/
theorem plain256 : PlainDot.IsPlain dot_S5000x256_S256x32_S5000x32_1_0_0_1_n_n where
  rank := rfl
  size := rfl
  lhs0 := fun i q => by
    unfold DotDims.lhsIdx
    rw [dif_neg (show ¬(0 : Fin S5000x256.rank) ∈ dot_S5000x256_S256x32_S5000x32_1_0_0_1_n_n.lhsBatch by decide), dif_pos (show (0 : Fin S5000x256.rank) ∈ dot_S5000x256_S256x32_S5000x32_1_0_0_1_n_n.lhsNonContracting by decide)]
    rfl
  lhs1 := fun i q => dot_S5000x256_S256x32_S5000x32_1_0_0_1_n_n.lhsIdx_val_of_single rfl i q
  rhs0 := fun i q => dot_S5000x256_S256x32_S5000x32_1_0_0_1_n_n.rhsIdx_val_of_single rfl i q
  rhs1 := fun i q => by
    unfold DotDims.rhsIdx
    rw [dif_neg (show ¬(1 : Fin S256x32.rank) ∈ dot_S5000x256_S256x32_S5000x32_1_0_0_1_n_n.rhsBatch by decide), dif_pos (show (1 : Fin S256x32.rank) ∈ dot_S5000x256_S256x32_S5000x32_1_0_0_1_n_n.rhsNonContracting by decide)]
    rfl

/-- The body's result at row p, lane j of the block: the sum over k of block(p, k) * weight(k, j), plus the bias at
    lane j, cut below at the zero word (the casts to the narrower format are the identity on the extended reals). -/
theorem pay0_apply (x0 : Vec Ideal S5000x256 .f32) (x1 : Vec Ideal S256x32 .f32) (x2 : Vec Ideal S32 .f32) (p : Fin 5000) (j : Fin 32) :
    k0_pay1 x0 x1 x2 (ix2 p j) = max ((∑ k : Fin 256, x0 (ix2 p k) * x1 (ix2 k j)) + x2 (ix1 j)) Cert.Gcn.zeroWord := by
  unfold k0_pay1
  refine congrArg₂ (fun a b => max (a + b) Cert.Gcn.zeroWord) ?_ ?_
  · exact PlainDot.matmul_zero_apply dot_S5000x256_S256x32_S5000x32_1_0_0_1_n_n plain256 none _ _ p j
  · exact Keepdims.broadcastTo_row_of_vec_apply x2 _ _ p j

/-- The same against the whole-array function: where the block's row is the array's row, and the weight and bias blocks
    are the weight and the bias, the body's result is the function's entry. -/
theorem point0 (x0 : Vec Ideal S5000x256 .f32) (x1 : Vec Ideal S256x32 .f32) (x2 : Vec Ideal S32 .f32)
    (A : FVec Ideal Cert.Gcn.SX .f32) (B : FVec Ideal Cert.Gcn.SW0 .f32) (C : FVec Ideal Cert.Gcn.SB .f32)
    (y : S5000x32.Idx) (i : Cert.Gcn.SH.Idx) (hi : (i 1).val = (y 1).val)
    (hA : ∀ k : Fin 256, x0 (ix2 (y 0) k) = A (ix2 (i 0) k)) (hB : ∀ (k : Fin 256) (j : Fin 32), x1 (ix2 k j) = B (ix2 k j))
    (hC : ∀ j : Fin 32, x2 (ix1 j) = C (ix1 j)) :
    k0_pay1 x0 x1 x2 y = Cert.Gcn.fcRelu A B C i := by
  obtain ⟨p, j, rfl⟩ : ∃ (p : Fin 5000) (j : Fin 32), y = ix2 p j := ⟨y 0, y 1, eq_ix2 y⟩
  obtain ⟨r, j', rfl⟩ : ∃ (r : Fin 100000) (j' : Fin 32), i = ix2 r j' := ⟨i 0, i 1, eq_ix2 i⟩
  obtain rfl : j = j' := (Fin.ext hi).symm
  rw [pay0_apply, Cert.Gcn.fcRelu_apply, hC]
  unfold Cert.Gcn.fcAt
  refine congrArg (fun s => max (s + C (ix1 j)) Cert.Gcn.zeroWord) ?_
  exact Finset.sum_congr rfl fun k _ => by rw [hB k j]; exact congrArg (· * B (ix2 k j)) (hA k)

/-- The printed index maps over the grid: feature and output blocks move together down the rows; weight and bias stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point t writes back is block t of the whole-array function of the arrays the region finds. -/
theorem flushed0_eq (c : Dev nD) (t : Fin cfg0.N) :
    (dat0 V c).flushed 3 t = ((cfg0.win 3).blk t).view.read (Elt Ideal) (Cert.Gcn.fcRelu (V c main_arg0) (V c main_arg2) (V c main_arg3)) := by
  show (cfg0.win 3).cut (grid0.coords t) ((dat0 V c).after 3 t) = _
  rw [after0_3]
  unfold out0_3
  rw [View.canon_unit_zero hz2f]
  simp only [View.ld_unit_zero (S := S5000x256) hz2f, View.ld_unit_zero (S := S256x32) hz2f, View.ld_unit_zero (S := S32) hz1f]
  obtain ⟨e00, e01, e10, e11, e20, e30, e31⟩ := idx0 t
  funext y
  show k0_pay1 (iblk0 V c 0 t) (iblk0 V c 1 t) (iblk0 V c 2 t) y
      = Cert.Gcn.fcRelu (V c main_arg0) (V c main_arg2) (V c main_arg3) (((cfg0.win 3).blk t).view.emb y)
  refine point0 (iblk0 V c 0 t) (iblk0 V c 1 t) (iblk0 V c 2 t) (V c main_arg0) (V c main_arg2) (V c main_arg3) y (((cfg0.win 3).blk t).view.emb y) ?_ ?_ ?_ ?_
  · show win0_3.index t (1 : Fin 2) * 32 + 1 * (y 1).val = (y 1).val
    omega
  · intro k
    show V c main_arg0 (((cfg0.win 0).blk t).view.emb (ix2 (y 0) k)) = V c main_arg0 (ix2 ((((cfg0.win 3).blk t).view.emb y) 0) k)
    refine congrArg (V c main_arg0) (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 256 + 1 * k.val = k.val; omega
  · intro k j
    show V c main_arg2 (((cfg0.win 1).blk t).view.emb (ix2 k j)) = V c main_arg2 (ix2 k j)
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 32 + 1 * j.val = j.val; omega
  · intro j
    show V c main_arg3 (((cfg0.win 2).blk t).view.emb (ix1 j)) = V c main_arg3 (ix1 j)
    refine congrArg (V c main_arg3) (funext fun a => Fin.ext ?_)
    match a with
    | ⟨0, _⟩ => show win0_2.index t (0 : Fin 1) * 32 + 1 * j.val = j.val; omega

/-- An index of the array lies in point t's block iff each coordinate lies in the block's range. -/
theorem mem_blk0 (t : Fin cfg0.N) (i : S100000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v30).slice (win0_3.rect t)).set ↔ _
  rw [View.set_slice_whole, Rect.mem_set_unit]
  exact Iff.rfl

/-- The twenty blocks of 5000 rows cover the 100000 rows: row r lies in block r / 5000. -/
theorem cover0 (i : S100000x32.Idx) : ∃ t : Fin cfg0.N, (cfg0.win 3).flush t = true ∧ i ∈ ((cfg0.win 3).blk t).view.set := by
  have hi0 : (i 0).val < 100000 := (i 0).isLt
  have hi1 : (i 1).val < 32 := (i 1).isLt
  have hN : cfg0.N = 20 := N_0
  have ht : (i 0).val / 5000 < cfg0.N := by rw [hN]; omega
  obtain ⟨e00, e01, e10, e11, e20, e30, e31⟩ := idx0 ⟨(i 0).val / 5000, ht⟩
  have e30' : win0_3.index ⟨(i 0).val / 5000, ht⟩ (0 : Fin 2) = (i 0).val / 5000 := e30
  refine ⟨⟨(i 0).val / 5000, ht⟩, flush0_3 _, ?_⟩
  rw [mem_blk0]
  intro a
  match a with
  | ⟨0, _⟩ => show win0_3.index ⟨(i 0).val / 5000, ht⟩ (0 : Fin 2) * 5000 ≤ (i 0).val ∧ (i 0).val < win0_3.index ⟨(i 0).val / 5000, ht⟩ (0 : Fin 2) * 5000 + 5000; omega
  | ⟨1, _⟩ => show win0_3.index ⟨(i 0).val / 5000, ht⟩ (1 : Fin 2) * 32 ≤ (i 1).val ∧ (i 1).val < win0_3.index ⟨(i 0).val / 5000, ht⟩ (1 : Fin 2) * 32 + 32; omega

/-- The output array after the region: the whole-array function of the arrays the region found. -/
theorem final0 (c : Dev nD) : (dat0 V c).arrAt 3 cfg0.N = Cert.Gcn.fcRelu (V c main_arg0) (V c main_arg2) (V c main_arg3) :=
  (dat0 V c).arrAt_eq_of_cover 3 (Cert.Gcn.fcRelu (V c main_arg0) (V c main_arg2) (V c main_arg3)) (fun t _ => flushed0_eq V c t) (cover0)

end Cert.KernelIdeal.Hand

end
-- ==== Proof.KLin.lean ====
/-
  The two dense regions of the graph convolutions read as whole arrays. Each runs over ten blocks of 10000 rows; at a
  point it loads its block of the incoming features and the whole 32 x 32 weight, multiplies them into a zero
  accumulator, and writes the block back. On the extended reals the product's entry (p, j) is the sum over k of
  block(p, k) * weight(k, j); block t's row p is the array's row 10000 t + p, so what every point writes back is its
  block of ONE whole-array product, and the ten blocks cover the rows.
-/
import proofs.«181133_j34840774705775_1_alg».proof.Proof.Gen.KernelIdeal.Frame
import proofs.«181133_j34840774705775_1_alg».proof.Proof.Spec
import proofs.«181133_j34840774705775_1_alg».proof.Proof.LibPlainDot
import proofs.«181133_j34840774705775_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz2' : (![0, 0] : Fin 2 → Nat) = fun _ => 0 := funext fun a => by fin_cases a <;> rfl

/-- The dimension numbers of the product are plain: the left operand's axis 1 against the right operand's axis 0, no
    batch axis; so the left operand is read at (row, k) and the right at (k, column). -/
theorem plain32 : PlainDot.IsPlain dot_S10000x32_S32x32_S10000x32_1_0_0_1_n_n where
  rank := rfl
  size := rfl
  lhs0 := fun i q => by
    unfold DotDims.lhsIdx
    rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
    rfl
  lhs1 := fun i q => dot_S10000x32_S32x32_S10000x32_1_0_0_1_n_n.lhsIdx_val_of_single rfl i q
  rhs0 := fun i q => dot_S10000x32_S32x32_S10000x32_1_0_0_1_n_n.rhsIdx_val_of_single rfl i q
  rhs1 := fun i q => by
    unfold DotDims.rhsIdx
    rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
    rfl

/-! ## Region 1: a dense product over blocks of 10000 rows -/

/-- The body's result at row p, column j of the block: the sum over k of the loaded block's (p, k) times the weight's (k, j)
    (the casts to the narrower format are the identity on the extended reals; the accumulator starts at the zero word). -/
theorem pay1_apply (x0 : Vec Ideal S10000x32 .f32) (x1 : Vec Ideal S32x32 .f32) (p : Fin 10000) (j : Fin 32) :
    k1_pay1 x0 x1 (ix2 p j) = ∑ k : Fin 32, x0 (ix2 p k) * x1 (ix2 k j) := by
  unfold k1_pay1
  refine (PlainDot.matmul_zero_apply dot_S10000x32_S32x32_S10000x32_1_0_0_1_n_n plain32 none _ _ p j).trans ?_
  refine Finset.sum_congr rfl fun k _ => ?_
  show shapeCast S10000x32 x0 shapeCasts_S10000x32_S10000x32 (ix2 p k) * x1 (ix2 k j) = _
  rw [shapeCast_self]

/-- The same against the whole-array product: where the block's row is the array's row r and the weight block is the
    weight, the body's result is the product's entry (r, j). -/
theorem point1 (x0 : Vec Ideal S10000x32 .f32) (x1 : Vec Ideal S32x32 .f32) (A : FVec Ideal Cert.Gcn.SH .f32) (B : FVec Ideal Cert.Gcn.SW .f32)
    (y : S10000x32.Idx) (i : Cert.Gcn.SH.Idx) (hi : (i 1).val = (y 1).val)
    (hA : ∀ k : Fin 32, x0 (ix2 (y 0) k) = A (ix2 (i 0) k)) (hB : ∀ (k j : Fin 32), x1 (ix2 k j) = B (ix2 k j)) :
    k1_pay1 x0 x1 y = Cert.Gcn.lin A B i := by
  obtain ⟨p, j, rfl⟩ : ∃ (p : Fin 10000) (j : Fin 32), y = ix2 p j := ⟨y 0, y 1, eq_ix2 y⟩
  obtain ⟨r, j', rfl⟩ : ∃ (r : Fin 100000) (j' : Fin 32), i = ix2 r j' := ⟨i 0, i 1, eq_ix2 i⟩
  obtain rfl : j = j' := (Fin.ext hi).symm
  rw [pay1_apply, Cert.Gcn.lin_apply]
  unfold Cert.Gcn.linAt
  exact Finset.sum_congr rfl fun k _ => by rw [hB k j]; exact congrArg (· * B (ix2 k j)) (hA k)

/-- The printed index maps over the grid: input and output blocks move together down the rows, the weight block stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole-array product of the arrays the region finds. -/
theorem flushed1_eq (c : Dev nD) (t : Fin cfg1.N) :
    (dat1 V c).flushed 2 t = ((cfg1.win 2).blk t).view.read (Elt Ideal) (Cert.Gcn.lin (V c main_v30) (V c main_arg4)) := by
  show (cfg1.win 2).cut (grid1.coords t) ((dat1 V c).after 2 t) = _
  rw [after1_2]
  unfold out1_2
  rw [View.canon_unit_zero hz2']
  simp only [View.ld_unit_zero (S := S10000x32) hz2', View.ld_unit_zero (S := S32x32) hz2']
  obtain ⟨e00, e01, e10, e11, e20, e21⟩ := idx1 t
  funext y
  show k1_pay1 (iblk1 V c 0 t) (iblk1 V c 1 t) y = Cert.Gcn.lin (V c main_v30) (V c main_arg4) (((cfg1.win 2).blk t).view.emb y)
  refine point1 (iblk1 V c 0 t) (iblk1 V c 1 t) (V c main_v30) (V c main_arg4) y (((cfg1.win 2).blk t).view.emb y) ?_ ?_ ?_
  · show win1_2.index t (1 : Fin 2) * 32 + 1 * (y 1).val = (y 1).val
    omega
  · intro k
    show V c main_v30 (((cfg1.win 0).blk t).view.emb (ix2 (y 0) k)) = V c main_v30 (ix2 ((((cfg1.win 2).blk t).view.emb y) 0) k)
    refine congrArg (V c main_v30) (funext fun a => Fin.ext ?_)
    match a with
    | ⟨0, _⟩ => show win1_0.index t (0 : Fin 2) * 10000 + 1 * (y 0).val = win1_2.index t (0 : Fin 2) * 10000 + 1 * (y 0).val; omega
    | ⟨1, _⟩ => show win1_0.index t (1 : Fin 2) * 32 + 1 * k.val = k.val; omega
  · intro k j
    show V c main_arg4 (((cfg1.win 1).blk t).view.emb (ix2 k j)) = V c main_arg4 (ix2 k j)
    refine congrArg (V c main_arg4) (funext fun a => Fin.ext ?_)
    match a with
    | ⟨0, _⟩ => show win1_1.index t (0 : Fin 2) * 32 + 1 * k.val = k.val; omega
    | ⟨1, _⟩ => show win1_1.index t (1 : Fin 2) * 32 + 1 * j.val = j.val; omega

/-- An index of the array lies in point t's block iff each coordinate lies in the block's range. -/
theorem mem_blk1 (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v31).slice (win1_2.rect t)).set ↔ _
  rw [View.set_slice_whole, Rect.mem_set_unit]
  exact Iff.rfl

/-- The ten blocks of 10000 rows cover the 100000 rows: row r lies in block r / 10000. -/
theorem cover1 (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 10 := N_1
  have ht : (i 0).val / 10000 < cfg1.N := by rw [hN]; omega
  obtain ⟨e00, e01, e10, e11, e20, e21⟩ := idx1 ⟨(i 0).val / 10000, ht⟩
  have e20' : win1_2.index ⟨(i 0).val / 10000, ht⟩ (0 : Fin 2) = (i 0).val / 10000 := e20
  refine ⟨⟨(i 0).val / 10000, ht⟩, flush1_2 _, ?_⟩
  rw [mem_blk1]
  intro a
  match a with
  | ⟨0, _⟩ => show win1_2.index ⟨(i 0).val / 10000, ht⟩ (0 : Fin 2) * 10000 ≤ (i 0).val ∧ (i 0).val < win1_2.index ⟨(i 0).val / 10000, ht⟩ (0 : Fin 2) * 10000 + 10000; omega
  | ⟨1, _⟩ => show win1_2.index ⟨(i 0).val / 10000, ht⟩ (1 : Fin 2) * 32 ≤ (i 1).val ∧ (i 1).val < win1_2.index ⟨(i 0).val / 10000, ht⟩ (1 : Fin 2) * 32 + 32; omega

/-- The output array after the region: the whole-array product of the arrays the region found. -/
theorem final1 (c : Dev nD) : (dat1 V c).arrAt 2 cfg1.N = Cert.Gcn.lin (V c main_v30) (V c main_arg4) :=
  (dat1 V c).arrAt_eq_of_cover 2 (Cert.Gcn.lin (V c main_v30) (V c main_arg4)) (fun t _ => flushed1_eq V c t) (cover1)

/-! ## Region 3: a dense product over blocks of 10000 rows -/

/-- The body's result at row p, column j of the block: the sum over k of the loaded block's (p, k) times the weight's (k, j)
    (the casts to the narrower format are the identity on the extended reals; the accumulator starts at the zero word). -/
theorem pay3_apply (x0 : Vec Ideal S10000x32 .f32) (x1 : Vec Ideal S32x32 .f32) (p : Fin 10000) (j : Fin 32) :
    k3_pay1 x0 x1 (ix2 p j) = ∑ k : Fin 32, x0 (ix2 p k) * x1 (ix2 k j) := by
  unfold k3_pay1
  refine (PlainDot.matmul_zero_apply dot_S10000x32_S32x32_S10000x32_1_0_0_1_n_n plain32 none _ _ p j).trans ?_
  refine Finset.sum_congr rfl fun k _ => ?_
  show shapeCast S10000x32 x0 shapeCasts_S10000x32_S10000x32 (ix2 p k) * x1 (ix2 k j) = _
  rw [shapeCast_self]

/-- The same against the whole-array product: where the block's row is the array's row r and the weight block is the
    weight, the body's result is the product's entry (r, j). -/
theorem point3 (x0 : Vec Ideal S10000x32 .f32) (x1 : Vec Ideal S32x32 .f32) (A : FVec Ideal Cert.Gcn.SH .f32) (B : FVec Ideal Cert.Gcn.SW .f32)
    (y : S10000x32.Idx) (i : Cert.Gcn.SH.Idx) (hi : (i 1).val = (y 1).val)
    (hA : ∀ k : Fin 32, x0 (ix2 (y 0) k) = A (ix2 (i 0) k)) (hB : ∀ (k j : Fin 32), x1 (ix2 k j) = B (ix2 k j)) :
    k3_pay1 x0 x1 y = Cert.Gcn.lin A B i := by
  obtain ⟨p, j, rfl⟩ : ∃ (p : Fin 10000) (j : Fin 32), y = ix2 p j := ⟨y 0, y 1, eq_ix2 y⟩
  obtain ⟨r, j', rfl⟩ : ∃ (r : Fin 100000) (j' : Fin 32), i = ix2 r j' := ⟨i 0, i 1, eq_ix2 i⟩
  obtain rfl : j = j' := (Fin.ext hi).symm
  rw [pay3_apply, Cert.Gcn.lin_apply]
  unfold Cert.Gcn.linAt
  exact Finset.sum_congr rfl fun k _ => by rw [hB k j]; exact congrArg (· * B (ix2 k j)) (hA k)

/-- The printed index maps over the grid: input and output blocks move together down the rows, the weight block stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole-array product of the arrays the region finds. -/
theorem flushed3_eq (c : Dev nD) (t : Fin cfg3.N) :
    (dat3 V c).flushed 2 t = ((cfg3.win 2).blk t).view.read (Elt Ideal) (Cert.Gcn.lin (V c main_v45) (V c main_arg6)) := by
  show (cfg3.win 2).cut (grid3.coords t) ((dat3 V c).after 2 t) = _
  rw [after3_2]
  unfold out3_2
  rw [View.canon_unit_zero hz2']
  simp only [View.ld_unit_zero (S := S10000x32) hz2', View.ld_unit_zero (S := S32x32) hz2']
  obtain ⟨e00, e01, e10, e11, e20, e21⟩ := idx3 t
  funext y
  show k3_pay1 (iblk3 V c 0 t) (iblk3 V c 1 t) y = Cert.Gcn.lin (V c main_v45) (V c main_arg6) (((cfg3.win 2).blk t).view.emb y)
  refine point3 (iblk3 V c 0 t) (iblk3 V c 1 t) (V c main_v45) (V c main_arg6) y (((cfg3.win 2).blk t).view.emb y) ?_ ?_ ?_
  · show win3_2.index t (1 : Fin 2) * 32 + 1 * (y 1).val = (y 1).val
    omega
  · intro k
    show V c main_v45 (((cfg3.win 0).blk t).view.emb (ix2 (y 0) k)) = V c main_v45 (ix2 ((((cfg3.win 2).blk t).view.emb y) 0) k)
    refine congrArg (V c main_v45) (funext fun a => Fin.ext ?_)
    match a with
    | ⟨0, _⟩ => show win3_0.index t (0 : Fin 2) * 10000 + 1 * (y 0).val = win3_2.index t (0 : Fin 2) * 10000 + 1 * (y 0).val; omega
    | ⟨1, _⟩ => show win3_0.index t (1 : Fin 2) * 32 + 1 * k.val = k.val; omega
  · intro k j
    show V c main_arg6 (((cfg3.win 1).blk t).view.emb (ix2 k j)) = V c main_arg6 (ix2 k j)
    refine congrArg (V c main_arg6) (funext fun a => Fin.ext ?_)
    match a with
    | ⟨0, _⟩ => show win3_1.index t (0 : Fin 2) * 32 + 1 * k.val = k.val; omega
    | ⟨1, _⟩ => show win3_1.index t (1 : Fin 2) * 32 + 1 * j.val = j.val; omega

/-- An index of the array lies in point t's block iff each coordinate lies in the block's range. -/
theorem mem_blk3 (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v46).slice (win3_2.rect t)).set ↔ _
  rw [View.set_slice_whole, Rect.mem_set_unit]
  exact Iff.rfl

/-- The ten blocks of 10000 rows cover the 100000 rows: row r lies in block r / 10000. -/
theorem cover3 (i : S100000x32.Idx) : ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 10 := N_3
  have ht : (i 0).val / 10000 < cfg3.N := by rw [hN]; omega
  obtain ⟨e00, e01, e10, e11, e20, e21⟩ := idx3 ⟨(i 0).val / 10000, ht⟩
  have e20' : win3_2.index ⟨(i 0).val / 10000, ht⟩ (0 : Fin 2) = (i 0).val / 10000 := e20
  refine ⟨⟨(i 0).val / 10000, ht⟩, flush3_2 _, ?_⟩
  rw [mem_blk3]
  intro a
  match a with
  | ⟨0, _⟩ => show win3_2.index ⟨(i 0).val / 10000, ht⟩ (0 : Fin 2) * 10000 ≤ (i 0).val ∧ (i 0).val < win3_2.index ⟨(i 0).val / 10000, ht⟩ (0 : Fin 2) * 10000 + 10000; omega
  | ⟨1, _⟩ => show win3_2.index ⟨(i 0).val / 10000, ht⟩ (1 : Fin 2) * 32 ≤ (i 1).val ∧ (i 1).val < win3_2.index ⟨(i 0).val / 10000, ht⟩ (1 : Fin 2) * 32 + 32; omega

/-- The output array after the region: the whole-array product of the arrays the region found. -/
theorem final3 (c : Dev nD) : (dat3 V c).arrAt 2 cfg3.N = Cert.Gcn.lin (V c main_v45) (V c main_arg6) :=
  (dat3 V c).arrAt_eq_of_cover 2 (Cert.Gcn.lin (V c main_v45) (V c main_arg6)) (fun t _ => flushed3_eq V c t) (cover3)

end Cert.KernelIdeal.Hand

end
-- ==== Proof.KBias.lean ====
/-
  The two bias regions of the kernel read as whole arrays. Each runs over five blocks of 20000 rows; at a point it
  loads its block of the incoming array and the 32 biases, adds the bias along the lanes (after the first convolution
  also takes the maximum with the zero word), and writes the block back. Block t's entry (p, j) is the array's entry
  (20000 t + p, j), so what every point writes back is its block of ONE function of the incoming array and the bias,
  and the five blocks cover the rows: the output array ends holding that function, whatever the region found in it.
-/
import proofs.«181133_j34840774705775_1_alg».proof.Proof.Gen.KernelIdeal.Frame
import proofs.«181133_j34840774705775_1_alg».proof.Proof.Spec
import proofs.«181133_j34840774705775_1_alg».proof.Proof.LibPlainDot
import proofs.«181133_j34840774705775_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Region 4: bias over blocks of 20000 rows -/

/-- The body's result at row p, lane j of the block: the loaded entry plus the bias at lane j. -/
theorem pay4_apply (x0 : Vec Ideal S20000x32 .f32) (x1 : Vec Ideal S32 .f32) (p : Fin 20000) (j : Fin 32) :
    k4_pay1 x0 x1 (ix2 p j) = x0 (ix2 p j) + x1 (ix1 j) := by
  unfold k4_pay1
  rw [shapeCast_self]
  refine congrArg (fun z => x0 (ix2 p j) + z) ?_
  exact Keepdims.broadcastTo_row_of_vec_apply x1 _ _ p j

/-- The same against the whole-array function: where the block's entry is the array's entry in the same lane and the
    bias block is the bias, the body's result is the function's entry. -/
theorem point4 (x0 : Vec Ideal S20000x32 .f32) (x1 : Vec Ideal S32 .f32) (A : FVec Ideal Cert.Gcn.SH .f32) (B : FVec Ideal Cert.Gcn.SB .f32)
    (y : S20000x32.Idx) (i : Cert.Gcn.SH.Idx) (hi : (i 1).val = (y 1).val)
    (hA : x0 y = A i) (hB : ∀ j : Fin 32, x1 (ix1 j) = B (ix1 j)) :
    k4_pay1 x0 x1 y = Cert.Gcn.bias A B i := by
  obtain ⟨p, j, rfl⟩ : ∃ (p : Fin 20000) (j : Fin 32), y = ix2 p j := ⟨y 0, y 1, eq_ix2 y⟩
  obtain ⟨r, j', rfl⟩ : ∃ (r : Fin 100000) (j' : Fin 32), i = ix2 r j' := ⟨i 0, i 1, eq_ix2 i⟩
  obtain rfl : j' = j := Fin.ext hi
  rw [pay4_apply, Cert.Gcn.bias_apply, hA, hB]

/-- The printed index maps over the grid: input and output blocks move together down the rows, the bias block stays. -/
theorem idx4 : ∀ t : Fin cfg4.N, win4_0.index t (0 : Fin 2) = t.val ∧ win4_0.index t (1 : Fin 2) = 0
    ∧ win4_1.index t (0 : Fin 1) = 0
    ∧ win4_2.index t (0 : Fin 2) = t.val ∧ win4_2.index t (1 : Fin 2) = 0 :=
  (by decide +kernel : ∀ t : Fin grid4.N, _)

/-- What point t writes back is block t of the whole-array function of the arrays the region finds. -/
theorem flushed4_eq (c : Dev nD) (t : Fin cfg4.N) :
    (dat4 V c).flushed 2 t = ((cfg4.win 2).blk t).view.read (Elt Ideal) (Cert.Gcn.bias (V c main_v59) (V c main_arg7)) := by
  show (cfg4.win 2).cut (grid4.coords t) ((dat4 V c).after 2 t) = _
  rw [after4_2]
  unfold out4_2
  rw [View.canon_unit_zero hz2]
  simp only [View.ld_unit_zero (S := S20000x32) hz2, View.ld_unit_zero (S := S32) hz1]
  obtain ⟨e00, e01, e10, e20, e21⟩ := idx4 t
  funext y
  show k4_pay1 (iblk4 V c 0 t) (iblk4 V c 1 t) y = Cert.Gcn.bias (V c main_v59) (V c main_arg7) (((cfg4.win 2).blk t).view.emb y)
  refine point4 (iblk4 V c 0 t) (iblk4 V c 1 t) (V c main_v59) (V c main_arg7) y (((cfg4.win 2).blk t).view.emb y) ?_ ?_ ?_
  · show win4_2.index t (1 : Fin 2) * 32 + 1 * (y 1).val = (y 1).val
    omega
  · show V c main_v59 (((cfg4.win 0).blk t).view.emb y) = V c main_v59 (((cfg4.win 2).blk t).view.emb y)
    refine congrArg (V c main_v59) (funext fun a => Fin.ext ?_)
    match a with
    | ⟨0, _⟩ => show win4_0.index t (0 : Fin 2) * 20000 + 1 * (y 0).val = win4_2.index t (0 : Fin 2) * 20000 + 1 * (y 0).val; omega
    | ⟨1, _⟩ => show win4_0.index t (1 : Fin 2) * 32 + 1 * (y 1).val = win4_2.index t (1 : Fin 2) * 32 + 1 * (y 1).val; omega
  · intro j
    show V c main_arg7 (((cfg4.win 1).blk t).view.emb (ix1 j)) = V c main_arg7 (ix1 j)
    refine congrArg (V c main_arg7) (funext fun a => Fin.ext ?_)
    match a with
    | ⟨0, _⟩ => show win4_1.index t (0 : Fin 1) * 32 + 1 * j.val = j.val; omega

/-- An index of the array lies in point t's block iff each coordinate lies in the block's range. -/
theorem mem_blk4 (t : Fin cfg4.N) (i : S100000x32.Idx) :
    i ∈ ((cfg4.win 2).blk t).view.set ↔ ∀ a : Fin 2, win4_2.index t a * S20000x32.size a ≤ (i a).val ∧ (i a).val < win4_2.index t a * S20000x32.size a + S20000x32.size a := by
  show i ∈ ((View.whole main_v60).slice (win4_2.rect t)).set ↔ _
  rw [View.set_slice_whole, Rect.mem_set_unit]
  exact Iff.rfl

/-- The five blocks of 20000 rows cover the 100000 rows: row r lies in block r / 20000. -/
theorem cover4 (i : S100000x32.Idx) : ∃ t : Fin cfg4.N, (cfg4.win 2).flush t = true ∧ i ∈ ((cfg4.win 2).blk t).view.set := by
  have hi0 : (i 0).val < 100000 := (i 0).isLt
  have hi1 : (i 1).val < 32 := (i 1).isLt
  have hN : cfg4.N = 5 := N_4
  have ht : (i 0).val / 20000 < cfg4.N := by rw [hN]; omega
  obtain ⟨e00, e01, e10, e20, e21⟩ := idx4 ⟨(i 0).val / 20000, ht⟩
  have e20' : win4_2.index ⟨(i 0).val / 20000, ht⟩ (0 : Fin 2) = (i 0).val / 20000 := e20
  refine ⟨⟨(i 0).val / 20000, ht⟩, flush4_2 _, ?_⟩
  rw [mem_blk4]
  intro a
  match a with
  | ⟨0, _⟩ => show win4_2.index ⟨(i 0).val / 20000, ht⟩ (0 : Fin 2) * 20000 ≤ (i 0).val ∧ (i 0).val < win4_2.index ⟨(i 0).val / 20000, ht⟩ (0 : Fin 2) * 20000 + 20000; omega
  | ⟨1, _⟩ => show win4_2.index ⟨(i 0).val / 20000, ht⟩ (1 : Fin 2) * 32 ≤ (i 1).val ∧ (i 1).val < win4_2.index ⟨(i 0).val / 20000, ht⟩ (1 : Fin 2) * 32 + 32; omega

/-- The output array after the region: the whole-array function of the arrays the region found. -/
theorem final4 (c : Dev nD) : (dat4 V c).arrAt 2 cfg4.N = Cert.Gcn.bias (V c main_v59) (V c main_arg7) :=
  (dat4 V c).arrAt_eq_of_cover 2 (Cert.Gcn.bias (V c main_v59) (V c main_arg7)) (fun t _ => flushed4_eq V c t) (cover4)

/-! ## Region 2: bias, then the rectifier over blocks of 20000 rows -/

/-- The body's result at row p, lane j of the block: the loaded entry plus the bias at lane j, cut below at the zero word. -/
theorem pay2_apply (x0 : Vec Ideal S20000x32 .f32) (x1 : Vec Ideal S32 .f32) (p : Fin 20000) (j : Fin 32) :
    k2_pay1 x0 x1 (ix2 p j) = max (x0 (ix2 p j) + x1 (ix1 j)) Cert.Gcn.zeroWord := by
  unfold k2_pay1
  rw [shapeCast_self]
  refine congrArg (fun z => max (x0 (ix2 p j) + z) _) ?_
  exact Keepdims.broadcastTo_row_of_vec_apply x1 _ _ p j

/-- The same against the whole-array function: where the block's entry is the array's entry in the same lane and the
    bias block is the bias, the body's result is the function's entry. -/
theorem point2 (x0 : Vec Ideal S20000x32 .f32) (x1 : Vec Ideal S32 .f32) (A : FVec Ideal Cert.Gcn.SH .f32) (B : FVec Ideal Cert.Gcn.SB .f32)
    (y : S20000x32.Idx) (i : Cert.Gcn.SH.Idx) (hi : (i 1).val = (y 1).val)
    (hA : x0 y = A i) (hB : ∀ j : Fin 32, x1 (ix1 j) = B (ix1 j)) :
    k2_pay1 x0 x1 y = Cert.Gcn.biasRelu A B i := by
  obtain ⟨p, j, rfl⟩ : ∃ (p : Fin 20000) (j : Fin 32), y = ix2 p j := ⟨y 0, y 1, eq_ix2 y⟩
  obtain ⟨r, j', rfl⟩ : ∃ (r : Fin 100000) (j' : Fin 32), i = ix2 r j' := ⟨i 0, i 1, eq_ix2 i⟩
  obtain rfl : j' = j := Fin.ext hi
  rw [pay2_apply, Cert.Gcn.biasRelu_apply, hA, hB]

/-- The printed index maps over the grid: input and output blocks move together down the rows, the bias block stays. -/
theorem idx2 : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- What point t writes back is block t of the whole-array function of the arrays the region finds. -/
theorem flushed2_eq (c : Dev nD) (t : Fin cfg2.N) :
    (dat2 V c).flushed 2 t = ((cfg2.win 2).blk t).view.read (Elt Ideal) (Cert.Gcn.biasRelu (V c main_v44) (V c main_arg5)) := by
  show (cfg2.win 2).cut (grid2.coords t) ((dat2 V c).after 2 t) = _
  rw [after2_2]
  unfold out2_2
  rw [View.canon_unit_zero hz2]
  simp only [View.ld_unit_zero (S := S20000x32) hz2, View.ld_unit_zero (S := S32) hz1]
  obtain ⟨e00, e01, e10, e20, e21⟩ := idx2 t
  funext y
  show k2_pay1 (iblk2 V c 0 t) (iblk2 V c 1 t) y = Cert.Gcn.biasRelu (V c main_v44) (V c main_arg5) (((cfg2.win 2).blk t).view.emb y)
  refine point2 (iblk2 V c 0 t) (iblk2 V c 1 t) (V c main_v44) (V c main_arg5) y (((cfg2.win 2).blk t).view.emb y) ?_ ?_ ?_
  · show win2_2.index t (1 : Fin 2) * 32 + 1 * (y 1).val = (y 1).val
    omega
  · show V c main_v44 (((cfg2.win 0).blk t).view.emb y) = V c main_v44 (((cfg2.win 2).blk t).view.emb y)
    refine congrArg (V c main_v44) (funext fun a => Fin.ext ?_)
    match a with
    | ⟨0, _⟩ => show win2_0.index t (0 : Fin 2) * 20000 + 1 * (y 0).val = win2_2.index t (0 : Fin 2) * 20000 + 1 * (y 0).val; omega
    | ⟨1, _⟩ => show win2_0.index t (1 : Fin 2) * 32 + 1 * (y 1).val = win2_2.index t (1 : Fin 2) * 32 + 1 * (y 1).val; omega
  · intro j
    show V c main_arg5 (((cfg2.win 1).blk t).view.emb (ix1 j)) = V c main_arg5 (ix1 j)
    refine congrArg (V c main_arg5) (funext fun a => Fin.ext ?_)
    match a with
    | ⟨0, _⟩ => show win2_1.index t (0 : Fin 1) * 32 + 1 * j.val = j.val; omega

/-- An index of the array lies in point t's block iff each coordinate lies in the block's range. -/
theorem mem_blk2 (t : Fin cfg2.N) (i : S100000x32.Idx) :
    i ∈ ((cfg2.win 2).blk t).view.set ↔ ∀ a : Fin 2, win2_2.index t a * S20000x32.size a ≤ (i a).val ∧ (i a).val < win2_2.index t a * S20000x32.size a + S20000x32.size a := by
  show i ∈ ((View.whole main_v45).slice (win2_2.rect t)).set ↔ _
  rw [View.set_slice_whole, Rect.mem_set_unit]
  exact Iff.rfl

/-- The five blocks of 20000 rows cover the 100000 rows: row r lies in block r / 20000. -/
theorem cover2 (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 5 := N_2
  have ht : (i 0).val / 20000 < cfg2.N := by rw [hN]; omega
  obtain ⟨e00, e01, e10, e20, e21⟩ := idx2 ⟨(i 0).val / 20000, ht⟩
  have e20' : win2_2.index ⟨(i 0).val / 20000, ht⟩ (0 : Fin 2) = (i 0).val / 20000 := e20
  refine ⟨⟨(i 0).val / 20000, ht⟩, flush2_2 _, ?_⟩
  rw [mem_blk2]
  intro a
  match a with
  | ⟨0, _⟩ => show win2_2.index ⟨(i 0).val / 20000, ht⟩ (0 : Fin 2) * 20000 ≤ (i 0).val ∧ (i 0).val < win2_2.index ⟨(i 0).val / 20000, ht⟩ (0 : Fin 2) * 20000 + 20000; omega
  | ⟨1, _⟩ => show win2_2.index ⟨(i 0).val / 20000, ht⟩ (1 : Fin 2) * 32 ≤ (i 1).val ∧ (i 1).val < win2_2.index ⟨(i 0).val / 20000, ht⟩ (1 : Fin 2) * 32 + 32; omega

/-- The output array after the region: the whole-array function of the arrays the region found. -/
theorem final2 (c : Dev nD) : (dat2 V c).arrAt 2 cfg2.N = Cert.Gcn.biasRelu (V c main_v44) (V c main_arg5) :=
  (dat2 V c).arrAt_eq_of_cover 2 (Cert.Gcn.biasRelu (V c main_v44) (V c main_arg5)) (fun t _ => flushed2_eq V c t) (cover2)

end Cert.KernelIdeal.Hand

end
-- ==== Proof.KRun.lean ====
/-
  The kernel program's run with its result buffer read: from any launch memory with zero counters, every weakly
  fair execution of the program on the TensorCores terminates, nothing faulting, and in every final state the
  result buffer holds what the fold of buffer contents through the program's segments leaves there, the argument
  arrays being as launched.
-/
import proofs.«181133_j34840774705775_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the fold's last contents, the arguments as launched. -/
theorem run_out : θ_run defs (onTc (τ := τ) (main (F := F))) ⟨m, fun _ => 0, ρ⟩ (fun r => ∀ c : Dev nD,
      r.2.mem ((c.tc : Thread nD τ).loc main_v60) = W10 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v60 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Hand

end
-- ==== Proof.Net.lean ====
/-
  The whole network as ONE function of the eight argument arrays: the dense stages entry by entry, the two
  normalised edge sums as the opaque chain, both convolutions over the same edge vectors and weights.
-/
import proofs.«181133_j34840774705775_1_alg».proof.Proof.Spec
import proofs.«181133_j34840774705775_1_alg».proof.Proof.RefStages

noncomputable section

namespace Cert.Gcn

open Idealize.ShloMosaic Cert.ReferenceIdeal.Chain

/-- One graph convolution without its bias: the dense product, then the normalised sum over incoming edges. -/
def conv (h : FVec Ideal SH .f32) (w : FVec Ideal SW .f32) (x1 : IVec Cert.ReferenceIdeal.S2x3200000 32) : FVec Ideal SH .f32 :=
  aggOf (lin h w) (srcOf x1) (dstOf x1) (normOf x1)

/-- The network's result. -/
def net (x0 : FVec Ideal SX .f32) (x1 : IVec Cert.ReferenceIdeal.S2x3200000 32) (x2 : FVec Ideal SW0 .f32) (x3 : FVec Ideal SB .f32)
    (x4 : FVec Ideal SW .f32) (x5 : FVec Ideal SB .f32) (x6 : FVec Ideal SW .f32) (x7 : FVec Ideal SB .f32) : FVec Ideal SH .f32 :=
  bias (conv (biasRelu (conv (fcRelu x0 x2 x3) x4 x1) x5) x6 x1) x7

end Cert.Gcn

end
-- ==== Proof.KFold.lean ====
/-
  The kernel program's result buffer read as a value of the launch memory: the fold of buffer contents through the
  program's segments, walked back from the result. A region's output array holds its dense stage of what the region
  found at entry; an edge sum's buffer holds the reference's chain of what its stretch found; the edge vectors and
  the edge weights are written before the first region and carried unchanged through everything after; every
  argument array is found as launched wherever it is read.
-/
import proofs.«181133_j34840774705775_1_alg».proof.Proof.Gen.KernelIdeal.Frame
import proofs.«181133_j34840774705775_1_alg».proof.Proof.KHost
import proofs.«181133_j34840774705775_1_alg».proof.Proof.KFc
import proofs.«181133_j34840774705775_1_alg».proof.Proof.KLin
import proofs.«181133_j34840774705775_1_alg».proof.Proof.KBias
import proofs.«181133_j34840774705775_1_alg».proof.Proof.KRun
import proofs.«181133_j34840774705775_1_alg».proof.Proof.Net

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (ρ : Dev nD → PrngReg) (c : Dev nD)

/-! ## Buffers nothing has written yet -/

/-- At the first region's entry, a buffer none of the three stretches before it writes is as launched. -/
theorem W3_launch (r : Ref sig .tc) (h0 : r ∉ ops0_W) (h1 : r ∉ ops0_1_W) (h2 : r ∉ ops0_2_W) :
    W3 m ρ c (Proc.devRef .tc r) = m ((c : Thread nD τ).loc r) :=
  (keep0_2 _ r h2).trans ((keep0_1 _ r h1).trans ((keep0 _ r h0).trans rfl))

/-- At the second region's entry. -/
theorem W4_launch (r : Ref sig .tc) (hr0 : ∀ w, Pipeline.arrRef spec0 w ≠ r) (h0 : r ∉ ops0_W) (h1 : r ∉ ops0_1_W)
    (h2 : r ∉ ops0_2_W) : W4 m ρ c (Proc.devRef .tc r) = m ((c : Thread nD τ).loc r) :=
  (W4_of_ne m ρ c r hr0).trans (W3_launch m ρ c r h0 h1 h2)

/-- At the second region's exit. -/
theorem W5_launch (r : Ref sig .tc) (hr1 : ∀ w, Pipeline.arrRef spec1 w ≠ r) (hr0 : ∀ w, Pipeline.arrRef spec0 w ≠ r)
    (h0 : r ∉ ops0_W) (h1 : r ∉ ops0_1_W) (h2 : r ∉ ops0_2_W) :
    W5 m ρ c (Proc.devRef .tc r) = m ((c : Thread nD τ).loc r) :=
  (W5_of_ne m ρ c r hr1).trans (W4_launch m ρ c r hr0 h0 h1 h2)

/-- At the third region's entry. -/
theorem W6_launch (r : Ref sig .tc) (h : r ∉ ops2_W) (hr1 : ∀ w, Pipeline.arrRef spec1 w ≠ r)
    (hr0 : ∀ w, Pipeline.arrRef spec0 w ≠ r) (h0 : r ∉ ops0_W) (h1 : r ∉ ops0_1_W) (h2 : r ∉ ops0_2_W) :
    W6 m ρ c (Proc.devRef .tc r) = m ((c : Thread nD τ).loc r) :=
  (keep2 _ r h).trans (W5_launch m ρ c r hr1 hr0 h0 h1 h2)

/-- At the fourth region's entry. -/
theorem W7_launch (r : Ref sig .tc) (hr2 : ∀ w, Pipeline.arrRef spec2 w ≠ r) (h : r ∉ ops2_W)
    (hr1 : ∀ w, Pipeline.arrRef spec1 w ≠ r) (hr0 : ∀ w, Pipeline.arrRef spec0 w ≠ r) (h0 : r ∉ ops0_W) (h1 : r ∉ ops0_1_W)
    (h2 : r ∉ ops0_2_W) : W7 m ρ c (Proc.devRef .tc r) = m ((c : Thread nD τ).loc r) :=
  (W7_of_ne m ρ c r hr2).trans (W6_launch m ρ c r h hr1 hr0 h0 h1 h2)

/-- At the last region's entry. -/
theorem W9_launch (r : Ref sig .tc) (h4 : r ∉ ops4_W) (hr3 : ∀ w, Pipeline.arrRef spec3 w ≠ r)
    (hr2 : ∀ w, Pipeline.arrRef spec2 w ≠ r) (h : r ∉ ops2_W)
    (hr1 : ∀ w, Pipeline.arrRef spec1 w ≠ r) (hr0 : ∀ w, Pipeline.arrRef spec0 w ≠ r) (h0 : r ∉ ops0_W) (h1 : r ∉ ops0_1_W)
    (h2 : r ∉ ops0_2_W) : W9 m ρ c (Proc.devRef .tc r) = m ((c : Thread nD τ).loc r) :=
  (keep4 _ r h4).trans ((W8_of_ne m ρ c r hr3).trans (W7_launch m ρ c r hr2 h hr1 hr0 h0 h1 h2))

/-! ## The argument arrays where they are read -/

theorem W3_arg0 : W3 m ρ c (Proc.devRef .tc main_arg0) = m ((c : Thread nD τ).loc main_arg0) :=
  W3_launch m ρ c main_arg0 (by decide) (by decide) (by decide)
theorem W3_arg2 : W3 m ρ c (Proc.devRef .tc main_arg2) = m ((c : Thread nD τ).loc main_arg2) :=
  W3_launch m ρ c main_arg2 (by decide) (by decide) (by decide)
theorem W3_arg3 : W3 m ρ c (Proc.devRef .tc main_arg3) = m ((c : Thread nD τ).loc main_arg3) :=
  W3_launch m ρ c main_arg3 (by decide) (by decide) (by decide)
theorem W4_arg4 : W4 m ρ c (Proc.devRef .tc main_arg4) = m ((c : Thread nD τ).loc main_arg4) :=
  W4_launch m ρ c main_arg4 (by decide) (by decide) (by decide) (by decide)
theorem W6_arg5 : W6 m ρ c (Proc.devRef .tc main_arg5) = m ((c : Thread nD τ).loc main_arg5) :=
  W6_launch m ρ c main_arg5 (by decide) (by decide) (by decide) (by decide) (by decide) (by decide)
theorem W7_arg6 : W7 m ρ c (Proc.devRef .tc main_arg6) = m ((c : Thread nD τ).loc main_arg6) :=
  W7_launch m ρ c main_arg6 (by decide) (by decide) (by decide) (by decide) (by decide) (by decide) (by decide)
theorem W9_arg7 : W9 m ρ c (Proc.devRef .tc main_arg7) = m ((c : Thread nD τ).loc main_arg7) :=
  W9_launch m ρ c main_arg7 (by decide) (by decide) (by decide) (by decide) (by decide) (by decide) (by decide) (by decide)
    (by decide)

/-! ## The edge vectors and weights, written before the first region and carried through -/

/-- From the first region's entry to the second region's exit, a buffer neither region has as an array. -/
theorem W5_carry (r : Ref sig .tc) (hr1 : ∀ w, Pipeline.arrRef spec1 w ≠ r) (hr0 : ∀ w, Pipeline.arrRef spec0 w ≠ r) :
    W5 m ρ c (Proc.devRef .tc r) = W3 m ρ c (Proc.devRef .tc r) :=
  (W5_of_ne m ρ c r hr1).trans (W4_of_ne m ρ c r hr0)

/-- From the second region's exit to the fourth region's exit. -/
theorem W8_carry (r : Ref sig .tc) (hr3 : ∀ w, Pipeline.arrRef spec3 w ≠ r) (hr2 : ∀ w, Pipeline.arrRef spec2 w ≠ r)
    (h : r ∉ ops2_W) : W8 m ρ c (Proc.devRef .tc r) = W5 m ρ c (Proc.devRef .tc r) :=
  (W8_of_ne m ρ c r hr3).trans ((W7_of_ne m ρ c r hr2).trans (keep2 _ r h))

theorem W3_src : W3 m ρ c (Proc.devRef .tc main_v5)
    = Cert.ReferenceIdeal.Chain.srcOf (m ((c : Thread nD τ).loc main_arg1)) := host0_src (W0 m ρ c)
theorem W3_dst : W3 m ρ c (Proc.devRef .tc main_v6)
    = Cert.ReferenceIdeal.Chain.dstOf (m ((c : Thread nD τ).loc main_arg1)) := host0_dst (W0 m ρ c)
theorem W3_norm : W3 m ρ c (Proc.devRef .tc main_v29)
    = Cert.ReferenceIdeal.Chain.normOf (m ((c : Thread nD τ).loc main_arg1)) := host0_norm (W0 m ρ c)

theorem W5_src : W5 m ρ c (Proc.devRef .tc main_v5)
    = Cert.ReferenceIdeal.Chain.srcOf (m ((c : Thread nD τ).loc main_arg1)) :=
  (W5_carry m ρ c main_v5 (by decide) (by decide)).trans (W3_src m ρ c)
theorem W5_dst : W5 m ρ c (Proc.devRef .tc main_v6)
    = Cert.ReferenceIdeal.Chain.dstOf (m ((c : Thread nD τ).loc main_arg1)) :=
  (W5_carry m ρ c main_v6 (by decide) (by decide)).trans (W3_dst m ρ c)
theorem W5_norm : W5 m ρ c (Proc.devRef .tc main_v29)
    = Cert.ReferenceIdeal.Chain.normOf (m ((c : Thread nD τ).loc main_arg1)) :=
  (W5_carry m ρ c main_v29 (by decide) (by decide)).trans (W3_norm m ρ c)
theorem W8_src : W8 m ρ c (Proc.devRef .tc main_v5)
    = Cert.ReferenceIdeal.Chain.srcOf (m ((c : Thread nD τ).loc main_arg1)) :=
  (W8_carry m ρ c main_v5 (by decide) (by decide) (by decide)).trans (W5_src m ρ c)
theorem W8_dst : W8 m ρ c (Proc.devRef .tc main_v6)
    = Cert.ReferenceIdeal.Chain.dstOf (m ((c : Thread nD τ).loc main_arg1)) :=
  (W8_carry m ρ c main_v6 (by decide) (by decide) (by decide)).trans (W5_dst m ρ c)
theorem W8_norm : W8 m ρ c (Proc.devRef .tc main_v29)
    = Cert.ReferenceIdeal.Chain.normOf (m ((c : Thread nD τ).loc main_arg1)) :=
  (W8_carry m ρ c main_v29 (by decide) (by decide) (by decide)).trans (W5_norm m ρ c)

/-! ## The stages, from the first to the result -/

/-- The first dense layer's output. -/
theorem W4_fc : W4 m ρ c (Proc.devRef .tc main_v30)
    = Cert.Gcn.fcRelu (m ((c : Thread nD τ).loc main_arg0)) (m ((c : Thread nD τ).loc main_arg2))
        (m ((c : Thread nD τ).loc main_arg3)) := by
  refine (W4_arr m ρ c 3).trans ((final0 (V3 m ρ) c).trans ?_)
  show Cert.Gcn.fcRelu (W3 m ρ c (Proc.devRef .tc main_arg0)) (W3 m ρ c (Proc.devRef .tc main_arg2))
    (W3 m ρ c (Proc.devRef .tc main_arg3)) = _
  rw [W3_arg0, W3_arg2, W3_arg3]

/-- The first convolution's dense product. -/
theorem W5_lin : W5 m ρ c (Proc.devRef .tc main_v31)
    = Cert.Gcn.lin (Cert.Gcn.fcRelu (m ((c : Thread nD τ).loc main_arg0)) (m ((c : Thread nD τ).loc main_arg2))
        (m ((c : Thread nD τ).loc main_arg3))) (m ((c : Thread nD τ).loc main_arg4)) := by
  refine (W5_arr m ρ c 2).trans ((final1 (V4 m ρ) c).trans ?_)
  show Cert.Gcn.lin (W4 m ρ c (Proc.devRef .tc main_v30)) (W4 m ρ c (Proc.devRef .tc main_arg4)) = _
  rw [W4_fc, W4_arg4]

/-- The first convolution's edge sum. -/
theorem W6_conv : W6 m ρ c (Proc.devRef .tc main_v44)
    = Cert.Gcn.conv (Cert.Gcn.fcRelu (m ((c : Thread nD τ).loc main_arg0)) (m ((c : Thread nD τ).loc main_arg2))
        (m ((c : Thread nD τ).loc main_arg3))) (m ((c : Thread nD τ).loc main_arg4)) (m ((c : Thread nD τ).loc main_arg1)) := by
  refine (host2_agg (W5 m ρ c)).trans ?_
  rw [W5_lin, W5_src, W5_dst, W5_norm]
  rfl

/-- The first convolution's output. -/
theorem W7_act : W7 m ρ c (Proc.devRef .tc main_v45)
    = Cert.Gcn.biasRelu (Cert.Gcn.conv (Cert.Gcn.fcRelu (m ((c : Thread nD τ).loc main_arg0)) (m ((c : Thread nD τ).loc main_arg2))
        (m ((c : Thread nD τ).loc main_arg3))) (m ((c : Thread nD τ).loc main_arg4)) (m ((c : Thread nD τ).loc main_arg1)))
        (m ((c : Thread nD τ).loc main_arg5)) := by
  refine (W7_arr m ρ c 2).trans ((final2 (V6 m ρ) c).trans ?_)
  show Cert.Gcn.biasRelu (W6 m ρ c (Proc.devRef .tc main_v44)) (W6 m ρ c (Proc.devRef .tc main_arg5)) = _
  rw [W6_conv, W6_arg5]

/-- The second convolution's dense product. -/
theorem W8_lin : W8 m ρ c (Proc.devRef .tc main_v46)
    = Cert.Gcn.lin (Cert.Gcn.biasRelu (Cert.Gcn.conv (Cert.Gcn.fcRelu (m ((c : Thread nD τ).loc main_arg0))
        (m ((c : Thread nD τ).loc main_arg2)) (m ((c : Thread nD τ).loc main_arg3))) (m ((c : Thread nD τ).loc main_arg4))
        (m ((c : Thread nD τ).loc main_arg1))) (m ((c : Thread nD τ).loc main_arg5))) (m ((c : Thread nD τ).loc main_arg6)) := by
  refine (W8_arr m ρ c 2).trans ((final3 (V7 m ρ) c).trans ?_)
  show Cert.Gcn.lin (W7 m ρ c (Proc.devRef .tc main_v45)) (W7 m ρ c (Proc.devRef .tc main_arg6)) = _
  rw [W7_act, W7_arg6]

/-- The second convolution's edge sum. -/
theorem W9_conv : W9 m ρ c (Proc.devRef .tc main_v59)
    = Cert.Gcn.conv (Cert.Gcn.biasRelu (Cert.Gcn.conv (Cert.Gcn.fcRelu (m ((c : Thread nD τ).loc main_arg0))
        (m ((c : Thread nD τ).loc main_arg2)) (m ((c : Thread nD τ).loc main_arg3))) (m ((c : Thread nD τ).loc main_arg4))
        (m ((c : Thread nD τ).loc main_arg1))) (m ((c : Thread nD τ).loc main_arg5))) (m ((c : Thread nD τ).loc main_arg6))
        (m ((c : Thread nD τ).loc main_arg1)) := by
  refine (host4_agg (W8 m ρ c)).trans ?_
  rw [W8_lin, W8_src, W8_dst, W8_norm]
  rfl

/-- The result buffer at the fold's end is the network of the launch memory's argument arrays. -/
theorem W10_out : W10 m ρ c (Proc.devRef .tc main_v60)
    = Cert.Gcn.net (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (W10_arr m ρ c 2).trans ((final4 (V9 m ρ) c).trans ?_)
  show Cert.Gcn.bias (W9 m ρ c (Proc.devRef .tc main_v59)) (W9 m ρ c (Proc.devRef .tc main_arg7)) = _
  rw [W9_conv, W9_arg7]
  rfl

/-! ## The run -/

/-- From any launch memory with zero counters, every weakly fair execution of the kernel program terminates, nothing
    faulting; in every final state the result buffer holds the network of the argument arrays, and these are as
    launched. -/
theorem run : θ_run defs (onTc (τ := τ) (main (F := Ideal))) ⟨m, fun _ => 0, ρ⟩ (fun r => ∀ c : Dev nD,
      r.2.mem ((c.tc : Thread nD τ).loc main_v60)
        = Cert.Gcn.net (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (W10_out m ρ c), (h c).2⟩) (run_out m ρ)

end Cert.KernelIdeal.Hand

end
-- ==== Proof.RefDense.lean ====
/-
  The reference's dense stages, read entry by entry at the extended reals.

  Each stage is a composition of whole-array operations: a matrix product with one contracted axis, a bias spread
  down the rows by two broadcasts ([32] to [1, 32] to [100000, 32]) and added, and the rectifier as the maximum
  with the zero word spread over the whole array. Read at the entry (r, j): the product is the sum over k of
  x(r, k) * w(k, j) (the contraction index set is in bijection with Fin K; the sum is re-indexed through that
  bijection), the spread bias is b(j), the spread constant is the number its word denotes. So every stage agrees
  entry by entry with the corresponding function of the specification, and the arrays are equal by extensionality.
-/
import proofs.«181133_j34840774705775_1_alg».proof.Proof.Spec
import proofs.«181133_j34840774705775_1_alg».proof.Proof.RefStages
import proofs.«181133_j34840774705775_1_alg».proof.Proof.LibPlainDot
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Facts₀ Idealize.ShloMosaic Idealize.ShloMosaic.ValueIdx

/-- A host matrix product with plain dimension numbers, at the extended reals, read at (r, j): the sum over the
    contracted axis of x(r, k) · w(k, j), whatever the precision and the schedule key. -/
theorem dotGeneral_plain_apply {M K N : Nat} {φ₁ φ₂ : FTy} (D : DotDims ⟨2, ![M, K]⟩ ⟨2, ![K, N]⟩ ⟨2, ![M, N]⟩)
    (h : PlainDot.IsPlain D) (prec : Option ContractPrecision) (sched : HostSchedule)
    (x : FVec Ideal ⟨2, ![M, K]⟩ φ₁) (w : FVec Ideal ⟨2, ![K, N]⟩ φ₂) (r : Fin M) (j : Fin N) :
    FloatOps.dotGeneral D prec sched x w (ix2 r j) = ∑ k : Fin K, x (ix2 r k) * w (ix2 k j) := by
  rw [Ideal.dotGeneral_apply, ← Equiv.sum_comp (contrEquiv1 D K h.rank h.size).symm]
  refine Finset.sum_congr rfl fun k _ => ?_
  rw [h.lhsIdx_eq r j k, h.rhsIdx_eq r j k]

/-- The first product's dimension numbers are plain: [100000, 256] × [256, 32]. -/
theorem plain256 : PlainDot.IsPlain dot_S100000x256_S256x32_S100000x32_1_0_0_1_n_n where
  rank := rfl
  size := rfl
  lhs0 := fun i q => by
    unfold DotDims.lhsIdx
    rw [dif_neg (show ¬(0 : Fin S100000x256.rank) ∈ dot_S100000x256_S256x32_S100000x32_1_0_0_1_n_n.lhsBatch by decide),
      dif_pos (show (0 : Fin S100000x256.rank) ∈ dot_S100000x256_S256x32_S100000x32_1_0_0_1_n_n.lhsNonContracting by decide)]
    rfl
  lhs1 := fun i q => dot_S100000x256_S256x32_S100000x32_1_0_0_1_n_n.lhsIdx_val_of_single rfl i q
  rhs0 := fun i q => dot_S100000x256_S256x32_S100000x32_1_0_0_1_n_n.rhsIdx_val_of_single rfl i q
  rhs1 := fun i q => by
    unfold DotDims.rhsIdx
    rw [dif_neg (show ¬(1 : Fin S256x32.rank) ∈ dot_S100000x256_S256x32_S100000x32_1_0_0_1_n_n.rhsBatch by decide),
      dif_pos (show (1 : Fin S256x32.rank) ∈ dot_S100000x256_S256x32_S100000x32_1_0_0_1_n_n.rhsNonContracting by decide)]
    rfl

/-- A convolution's product's dimension numbers are plain: [100000, 32] × [32, 32]. -/
theorem plain32 : PlainDot.IsPlain dot_S100000x32_S32x32_S100000x32_1_0_0_1_n_n where
  rank := rfl
  size := rfl
  lhs0 := fun i q => by
    unfold DotDims.lhsIdx
    rw [dif_neg (show ¬(0 : Fin S100000x32.rank) ∈ dot_S100000x32_S32x32_S100000x32_1_0_0_1_n_n.lhsBatch by decide),
      dif_pos (show (0 : Fin S100000x32.rank) ∈ dot_S100000x32_S32x32_S100000x32_1_0_0_1_n_n.lhsNonContracting by decide)]
    rfl
  lhs1 := fun i q => dot_S100000x32_S32x32_S100000x32_1_0_0_1_n_n.lhsIdx_val_of_single rfl i q
  rhs0 := fun i q => dot_S100000x32_S32x32_S100000x32_1_0_0_1_n_n.rhsIdx_val_of_single rfl i q
  rhs1 := fun i q => by
    unfold DotDims.rhsIdx
    rw [dif_neg (show ¬(1 : Fin S32x32.rank) ∈ dot_S100000x32_S32x32_S100000x32_1_0_0_1_n_n.rhsBatch by decide),
      dif_pos (show (1 : Fin S32x32.rank) ∈ dot_S100000x32_S32x32_S100000x32_1_0_0_1_n_n.rhsNonContracting by decide)]
    rfl

/-- The first dense product at (r, j). -/
theorem dot256Of_apply (x : FVec Ideal S100000x256 .f32) (w : FVec Ideal S256x32 .f32) (r : Fin 100000) (j : Fin 32) :
    Chain.dot256Of x w (ix2 r j) = ∑ k : Fin 256, x (ix2 r k) * w (ix2 k j) := by
  unfold Chain.dot256Of
  simp only [Host.dotGeneral]
  exact dotGeneral_plain_apply dot_S100000x256_S256x32_S100000x32_1_0_0_1_n_n plain256 _ _ x w r j

/-- A convolution's dense product at (r, j). -/
theorem dot32Of_apply (h : FVec Ideal S100000x32 .f32) (w : FVec Ideal S32x32 .f32) (r : Fin 100000) (j : Fin 32) :
    Chain.dot32Of h w (ix2 r j) = ∑ k : Fin 32, h (ix2 r k) * w (ix2 k j) := by
  unfold Chain.dot32Of
  simp only [Host.dotGeneral]
  exact dotGeneral_plain_apply dot_S100000x32_S32x32_S100000x32_1_0_0_1_n_n plain32 _ _ h w r j

/-- A bias spread to one row reads the bias at the column. -/
theorem bcastRow_apply (b : FVec Ideal S32 .f32) (i : S1x32.Idx) :
    broadcastInDim S1x32 ![1] bcast_S32_S1x32_1 b i = b (ix1 (i 1)) :=
  broadcastInDim_apply _ bcast_S32_S1x32_1 b i (ix1 (i 1)) (fun a => match a with
    | ⟨0, _⟩ => by show (i 1).val = if (32 : Nat) = 1 then 0 else (i 1).val; rw [if_neg (by decide)])

/-- One row spread down all the rows reads the row at the column. -/
theorem bcastRows_apply (y : FVec Ideal S1x32 .f32) (r : Fin 100000) (j : Fin 32) :
    broadcastInDim S100000x32 ![0, 1] bcast_S1x32_S100000x32_0_1 y (ix2 r j) = y (ix2 (0 : Fin 1) j) :=
  broadcastInDim_apply _ bcast_S1x32_S100000x32_0_1 y (ix2 r j) (ix2 (0 : Fin 1) j) (fun a => match a with
    | ⟨0, _⟩ => by show 0 = if (1 : Nat) = 1 then 0 else r.val; rw [if_pos rfl]
    | ⟨1, _⟩ => by show j.val = if (32 : Nat) = 1 then 0 else j.val; rw [if_neg (by decide)])

/-- The zero word spread over the whole array reads the number it denotes. -/
theorem bcastZero_apply (i : S100000x32.Idx) :
    broadcastInDim S100000x32 ![] bcast_S_S100000x32 (constant (F := Ideal) S_ .f32 0x00000000#32) i = Cert.Gcn.zeroWord :=
  broadcastInDim_apply _ bcast_S_S100000x32 (constant (F := Ideal) S_ .f32 0x00000000#32) i (fun a => a.elim0) (fun a => a.elim0)

/-- The bias stage at (r, j). -/
theorem biasOf_apply (a : FVec Ideal S100000x32 .f32) (b : FVec Ideal S32 .f32) (r : Fin 100000) (j : Fin 32) :
    Chain.biasOf a b (ix2 r j) = a (ix2 r j) + b (ix1 j) := by
  unfold Chain.biasOf
  rw [addf_apply, bcastRows_apply, bcastRow_apply]

/-- The rectifier at an index. -/
theorem reluOf_apply (a : FVec Ideal S100000x32 .f32) (i : S100000x32.Idx) :
    Chain.reluOf a i = max (a i) Cert.Gcn.zeroWord := by
  unfold Chain.reluOf
  rw [maximumf_apply, bcastZero_apply]

theorem bias_eq (a : FVec Ideal S100000x32 .f32) (b : FVec Ideal S32 .f32) : Chain.biasOf a b = Cert.Gcn.bias a b := by
  funext i
  obtain ⟨r, j, rfl⟩ : ∃ (r : Fin 100000) (j : Fin 32), i = ix2 r j := ⟨i 0, i 1, eq_ix2 i⟩
  rw [biasOf_apply]
  rfl

theorem biasRelu_eq (a : FVec Ideal S100000x32 .f32) (b : FVec Ideal S32 .f32) :
    Chain.reluOf (Chain.biasOf a b) = Cert.Gcn.biasRelu a b := by
  funext i
  obtain ⟨r, j, rfl⟩ : ∃ (r : Fin 100000) (j : Fin 32), i = ix2 r j := ⟨i 0, i 1, eq_ix2 i⟩
  rw [reluOf_apply, biasOf_apply]
  rfl

theorem lin_eq (h : FVec Ideal S100000x32 .f32) (w : FVec Ideal S32x32 .f32) : Chain.dot32Of h w = Cert.Gcn.lin h w := by
  funext i
  obtain ⟨r, j, rfl⟩ : ∃ (r : Fin 100000) (j : Fin 32), i = ix2 r j := ⟨i 0, i 1, eq_ix2 i⟩
  rw [dot32Of_apply]
  rfl

theorem fc_eq (x0 : FVec Ideal S100000x256 .f32) (x2 : FVec Ideal S256x32 .f32) (x3 : FVec Ideal S32 .f32) :
    Chain.reluOf (Chain.biasOf (Chain.dot256Of x0 x2) x3) = Cert.Gcn.fcRelu x0 x2 x3 := by
  funext i
  obtain ⟨r, j, rfl⟩ : ∃ (r : Fin 100000) (j : Fin 32), i = ix2 r j := ⟨i 0, i 1, eq_ix2 i⟩
  rw [reluOf_apply, biasOf_apply, dot256Of_apply]
  rfl

end Cert.ReferenceIdeal.Hand

end
-- ==== Proof.RefRun.lean ====
/-
  The reference program's run, with its result written as the network of the specification.

  The run of the reference ends with its result buffer at the composed term of its 119 operations applied to the
  eight arguments. That term is, by unfolding definitions only, the chain of the reference's stages: the first dense
  stage with its rectifier, then twice a dense product, the normalised sum over incoming edges and a bias (with a
  rectifier after the first). The program computes the edge vectors and the edge weights once per convolution; both
  copies are the same term of the edge list, so one name stands for both. Each dense stage equals, entry by entry,
  the corresponding function of the specification; the edge sums are kept as they are.
-/
import proofs.«181133_j34840774705775_1_alg».proof.Proof.RefRunP
import proofs.«181133_j34840774705775_1_alg».proof.Proof.RefDense
import proofs.«181133_j34840774705775_1_alg».proof.Proof.Net

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
set_option maxHeartbeats 4000000 in
/-- The composed term of the run is the chain of the reference's stages (definitional unfolding only). -/
theorem res_chain (m : (ℓ : Loc nD τ sig) → Buf (Elt Ideal) ℓ) (c : Dev nD) :
    Value.res_main_v95 (F := Ideal) m c
      = Chain.biasOf (Chain.aggOf (Chain.dot32Of (Chain.reluOf (Chain.biasOf (Chain.aggOf (Chain.dot32Of (Chain.reluOf (Chain.biasOf (Chain.dot256Of (m ((c.tc : Thread nD τ).loc main_arg0)) (m ((c.tc : Thread nD τ).loc main_arg2))) (m ((c.tc : Thread nD τ).loc main_arg3)))) (m ((c.tc : Thread nD τ).loc main_arg4))) (Chain.srcOf (m ((c.tc : Thread nD τ).loc main_arg1))) (Chain.dstOf (m ((c.tc : Thread nD τ).loc main_arg1))) (Chain.normOf (m ((c.tc : Thread nD τ).loc main_arg1)))) (m ((c.tc : Thread nD τ).loc main_arg5)))) (m ((c.tc : Thread nD τ).loc main_arg6))) (Chain.srcOf (m ((c.tc : Thread nD τ).loc main_arg1))) (Chain.dstOf (m ((c.tc : Thread nD τ).loc main_arg1))) (Chain.normOf (m ((c.tc : Thread nD τ).loc main_arg1)))) (m ((c.tc : Thread nD τ).loc main_arg7)) := by
  unfold Value.res_main_v95
  rfl

/-- The composed term of the run is the network of the specification at the eight arguments. -/
theorem res_eq (m : (ℓ : Loc nD τ sig) → Buf (Elt Ideal) ℓ) (c : Dev nD) :
    Value.res_main_v95 (F := Ideal) m c
      = Cert.Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [res_chain, fc_eq, lin_eq, lin_eq, biasRelu_eq, bias_eq]
  rfl

/-- On every device, from any memory with zero counters: every weakly fair execution of the reference terminates
    with its result at the network of the specification applied to the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v95) = Cert.Gcn.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (res_eq m c), (h c).2⟩) (Value.run (F := Ideal) m ρ)

end Cert.ReferenceIdeal.Hand

end
-- ==== Proof.lean ====
/-
  The certificate of a two-layer graph convolution network: a Pallas kernel program against its plain reference,
  equal as functions on the extended reals.

  Both programs compute, for node features x, an edge list e, and weights and biases,

      h0  = relu(x · W0 + b0)
      h1  = relu(A(h0 · W1) + b1)
      out = A(h1 · W2) + b2

  where A sums, for each node, the rows of its argument over the node's incoming edges (every node also has a loop to
  itself), each row scaled by the product of the inverse square roots of the two ends' in-degrees.

  The kernel program runs the three dense products and the two bias stages as five pipelined regions over blocks of
  rows; each region's output array is read as one whole-array function of the arrays it found (a dense product's entry
  is a finite sum on the extended reals, where addition is commutative and associative, so neither the blocking nor the
  order of summation matters, and a cast to a narrower float format is the identity). Between the regions both programs
  apply the same chain of gathers and scatter-adds to the edge list; that chain is carried as one opaque function and
  never opened (the reference merely builds the edge vectors and weights once per layer, the kernel once in all). So both
  results are the same function of the eight arguments, and the precondition (finite inputs) is not needed: no step
  distributes, cancels or moves a factor across a sum.

  The kernel's idealization rewrote no operation, so it is the kernel's own text read at the extended reals.
-/
import proofs.«181133_j34840774705775_1_alg».proof.Defs
import proofs.«181133_j34840774705775_1_alg».proof.Proof.Gen.Kernel
import proofs.«181133_j34840774705775_1_alg».proof.Proof.Gen.Kernel.Frame
import proofs.«181133_j34840774705775_1_alg».proof.Proof.Gen.KernelIdeal
import proofs.«181133_j34840774705775_1_alg».proof.Proof.Gen.KernelIdeal.Frame
import proofs.«181133_j34840774705775_1_alg».proof.Proof.Gen.ReferenceIdeal
import proofs.«181133_j34840774705775_1_alg».proof.Proof.Gen.Pre_finite_inputs
import proofs.«181133_j34840774705775_1_alg».proof.Proof.KFold
import proofs.«181133_j34840774705775_1_alg».proof.Proof.RefRun

noncomputable section

namespace Cert.Proof

open Idealize.ShloMosaic Idealize.SL.Sem

/-- The kernel program as printed terminates without a fault and leaves its arguments as they were. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Hand.run m ρ)

/-- Both programs end with the network's one function of the arguments in their result array. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨a0, a1, a2, a3, a4, a5, a6, a7⟩ := hagree c
  rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
